-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x1024 : Shape := ⟨2, ![256, 1024]⟩
abbrev S1024 : Shape := ⟨1, ![1024]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S65536x256 .f32) (main_arg1 : FVec F S256x1024 .f32) (main_arg2 : FVec F S1024 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S65536x256 : Shape := ⟨2, ![65536, 256]⟩
abbrev S256x1024 : Shape := ⟨2, ![256, 1024]⟩
abbrev S1024 : Shape := ⟨1, ![1024]⟩
abbrev S1x1024 : Shape := ⟨2, ![1, 1024]⟩
abbrev S4x16384x256 : Shape := ⟨3, ![4, 16384, 256]⟩
abbrev S1024x256 : Shape := ⟨2, ![1024, 256]⟩
abbrev S4x1024x256 : Shape := ⟨3, ![4, 1024, 256]⟩
abbrev S1024x1024 : Shape := ⟨2, ![1024, 1024]⟩
abbrev S1x1024x256 : Shape := ⟨3, ![1, 1024, 256]⟩

abbrev nBuf : Space → Nat
  | .hbm => 7
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S256x1024, .f32⟩
  | .hbm, ⟨2, _⟩ => ⟨S1024, .f32⟩
  | .hbm, ⟨3, _⟩ => ⟨S256x1024, .bf16⟩
  | .hbm, ⟨4, _⟩ => ⟨S1x1024, .f32⟩
  | .hbm, ⟨5, _⟩ => ⟨S4x16384x256, .f32⟩
  | .hbm, ⟨6, _⟩ => ⟨S65536x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S256x1024, .bf16⟩
  | .local _ .vmem, ⟨9, _⟩ => ⟨S1x1024, .f32⟩
  | .local _ .vmem, ⟨10, _⟩ => ⟨S4x1024x256, .f32⟩
  | .local _ .vmem, ⟨11, _⟩ => ⟨S4x1024x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x256_S1024x256_0_0 : ∀ a, (![0, 0] : Fin 2 → Nat) a + S1024x256.size a ≤ S1024x256.size a
  h_S1024x256 : 0 < S1024x256.numel
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  inb_S4x1024x256_S1x1024x256_0_0_0 : ∀ a, (![0, 0, 0] : Fin 3 → Nat) a + S1x1024x256.size a ≤ S4x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S4x1024x256_S1x1024x256_1_0_0 : ∀ a, (![1, 0, 0] : Fin 3 → Nat) a + S1x1024x256.size a ≤ S4x1024x256.size a
  inb_S4x1024x256_S1x1024x256_2_0_0 : ∀ a, (![2, 0, 0] : Fin 3 → Nat) a + S1x1024x256.size a ≤ S4x1024x256.size a
  inb_S4x1024x256_S1x1024x256_3_0_0 : ∀ a, (![3, 0, 0] : Fin 3 → Nat) a + S1x1024x256.size a ≤ S4x1024x256.size a
  shapeCasts_S4x16384x256_S65536x256 : S4x16384x256.ShapeCasts S65536x256
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S65536x256.size a
  hwx0_1 : ∀ i : grid0.Coords, EltTy.bits .f32 = 32 ∨ (Rect.block (s := S65536x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S65536x256.size a
  hwx0_3 : ∀ i : grid0.Coords, EltTy.bits .f32 = 32 ∨ (Rect.block (s := S65536x256) S1024x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x1024x256.size a ≤ S4x16384x256.size a
  hwx0_6 : ∀ i : grid0.Coords, EltTy.bits .f32 = 32 ∨ (Rect.block (s := S4x16384x256) S4x1024x256.size (cc0_transform_6 i) (hinb0_6 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S4x1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x1024 : Shape := ⟨2, ![256, 1024]⟩
abbrev S1024 : Shape := ⟨1, ![1024]⟩
abbrev S65536x1024 : Shape := ⟨2, ![65536, 1024]⟩
abbrev S4x16384x1024 : Shape := ⟨3, ![4, 16384, 1024]⟩
abbrev S_ : Shape := ⟨0, ![]⟩
abbrev S1 : Shape := ⟨1, ![1]⟩
abbrev S16384x1024 : Shape := ⟨2, ![16384, 1024]⟩
abbrev S4x16384x4x256 : Shape := ⟨4, ![4, 16384, 4, 256]⟩
abbrev S1x16384x1x256 : Shape := ⟨4, ![1, 16384, 1, 256]⟩
abbrev S16384x256 : Shape := ⟨2, ![16384, 256]⟩

abbrev nBuf : Space → Nat
  | .hbm => 61
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256x1024, .f32⟩
  | .hbm, ⟨2, _⟩ => ⟨S1024, .f32⟩
  | .hbm, ⟨3, _⟩ => ⟨S65536x1024, .f32⟩
  | .hbm, ⟨4, _⟩ => ⟨S4x16384x1024, .f32⟩
  | .hbm, ⟨5, _⟩ => ⟨S_, .i32⟩
  | .hbm, ⟨6, _⟩ => ⟨S1, .i32⟩
  | .hbm, ⟨7, _⟩ => ⟨S16384x1024, .f32⟩
  | .hbm, ⟨8, _⟩ => ⟨S4x16384x1024, .f32⟩
  | .hbm, ⟨9, _⟩ => ⟨S4x16384x4x256, .f32⟩
  | .hbm, ⟨10, _⟩ => ⟨S1x16384x1x256, .f32⟩
  | .hbm, ⟨11, _⟩ => ⟨S16384x256, .f32⟩
  | .hbm, ⟨12, _⟩ => ⟨S1x16384x1x256, .f32⟩
  | .hbm, ⟨13, _⟩ => ⟨S16384x256, .f32⟩
  | .hbm, ⟨14, _⟩ => ⟨S1x16384x1x256, .f32⟩
  | .hbm, ⟨15, _⟩ => ⟨S16384x256, .f32⟩
  | .hbm, ⟨16, _⟩ => ⟨S1x16384x1x256, .f32⟩
  | .hbm, ⟨17, _⟩ => ⟨S16384x256, .f32⟩
  | .hbm, ⟨18, _⟩ => ⟨S1x16384x1x256, .f32⟩
  | .hbm, ⟨19, _⟩ => ⟨S16384x256, .f32⟩
  | .hbm, ⟨20, _⟩ => ⟨S16384x256, .f32⟩
  | .hbm, ⟨21, _⟩ => ⟨S1x16384x1x256, .f32⟩
  | .hbm, ⟨22, _⟩ => ⟨S16384x256, .f32⟩
  | .hbm, ⟨23, _⟩ => ⟨S16384x256, .f32⟩
  | .hbm, ⟨24, _⟩ => ⟨S16384x256, .f32⟩
  | .hbm, ⟨25, _⟩ => ⟨S1x16384x1x256, .f32⟩
  | .hbm, ⟨26, _⟩ => ⟨S16384x256, .f32⟩
  | .hbm, ⟨27, _⟩ => ⟨S16384x256, .f32⟩
  | .hbm, ⟨28, _⟩ => ⟨S1x16384x1x256, .f32⟩
  | .hbm, ⟨29, _⟩ => ⟨S16384x256, .f32⟩
  | .hbm, ⟨30, _⟩ => ⟨S16384x256, .f32⟩
  | .hbm, ⟨31, _⟩ => ⟨S16384x256, .f32⟩
  | .hbm, ⟨32, _⟩ => ⟨S1x16384x1x256, .f32⟩
  | .hbm, ⟨33, _⟩ => ⟨S16384x256, .f32⟩
  | .hbm, ⟨34, _⟩ => ⟨S16384x256, .f32⟩
  | .hbm, ⟨35, _⟩ => ⟨S1x16384x1x256, .f32⟩
  | .hbm, ⟨36, _⟩ => ⟨S16384x256, .f32⟩
  | .hbm, ⟨37, _⟩ => ⟨S16384x256, .f32⟩
  | .hbm, ⟨38, _⟩ => ⟨S16384x256, .f32⟩
  | .hbm, ⟨39, _⟩ => ⟨S1x16384x1x256, .f32⟩
  | .hbm, ⟨40, _⟩ => ⟨S16384x256, .f32⟩
  | .hbm, ⟨41, _⟩ => ⟨S16384x256, .f32⟩
  | .hbm, ⟨42, _⟩ => ⟨S16384x256, .f32⟩
  | .hbm, ⟨43, _⟩ => ⟨S1x16384x1x256, .f32⟩
  | .hbm, ⟨44, _⟩ => ⟨S16384x256, .f32⟩
  | .hbm, ⟨45, _⟩ => ⟨S16384x256, .f32⟩
  | .hbm, ⟨46, _⟩ => ⟨S1x16384x1x256, .f32⟩
  | .hbm, ⟨47, _⟩ => ⟨S16384x256, .f32⟩
  | .hbm, ⟨48, _⟩ => ⟨S16384x256, .f32⟩
  | .hbm, ⟨49, _⟩ => ⟨S1x16384x1x256, .f32⟩
  | .hbm, ⟨50, _⟩ => ⟨S16384x256, .f32⟩
  | .hbm, ⟨51, _⟩ => ⟨S16384x256, .f32⟩
  | .hbm, ⟨52, _⟩ => ⟨S1x16384x1x256, .f32⟩
  | .hbm, ⟨53, _⟩ => ⟨S16384x256, .f32⟩
  | .hbm, ⟨54, _⟩ => ⟨S16384x256, .f32⟩
  | .hbm, ⟨55, _⟩ => ⟨S16384x256, .f32⟩
  | .hbm, ⟨56, _⟩ => ⟨S1x16384x1x256, .f32⟩
  | .hbm, ⟨57, _⟩ => ⟨S16384x256, .f32⟩
  | .hbm, ⟨58, _⟩ => ⟨S16384x256, .f32⟩
  | .hbm, ⟨59, _⟩ => ⟨S16384x256, .f32⟩
  | .hbm, ⟨60, _⟩ => ⟨S65536x256, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩

abbrev nD : Nat := 1
abbrev τ : Topo := Topo.v7x

variable {F : FTy → Type} [FloatOps F]

class Facts₀ : Prop where
  shapeCasts_S65536x1024_S4x16384x1024 : S65536x1024.ShapeCasts S4x16384x1024
  bcast_S_S1 : S_.BroadcastsInDim S1 (![] : Fin 0 → Fin S1.rank)
  bcast_S1024_S16384x1024_1 : S1024.BroadcastsInDim S16384x1024 (![1] : Fin 1 → Fin S16384x1024.rank)
  shapeCasts_S4x16384x1024_S4x16384x4x256 : S4x16384x1024.ShapeCasts S4x16384x4x256
  slices_S4x16384x4x256_S1x16384x1x256_0_0_0_0 : S4x16384x4x256.Slices ![0, 0, 0, 0] S1x16384x1x256
  shapeCasts_S1x16384x1x256_S16384x256 : S1x16384x1x256.ShapeCasts S16384x256
  slices_S4x16384x4x256_S1x16384x1x256_0_0_1_0 : S4x16384x4x256.Slices ![0, 0, 1, 0] S1x16384x1x256
  slices_S4x16384x4x256_S1x16384x1x256_0_0_2_0 : S4x16384x4x256.Slices ![0, 0, 2, 0] S1x16384x1x256
  slices_S4x16384x4x256_S1x16384x1x256_0_0_3_0 : S4x16384x4x256.Slices ![0, 0, 3, 0] S1x16384x1x256
  slices_S4x16384x4x256_S1x16384x1x256_1_0_0_0 : S4x16384x4x256.Slices ![1, 0, 0, 0] S1x16384x1x256
  slices_S4x16384x4x256_S1x16384x1x256_1_0_1_0 : S4x16384x4x256.Slices ![1, 0, 1, 0] S1x16384x1x256
  slices_S4x16384x4x256_S1x16384x1x256_1_0_2_0 : S4x16384x4x256.Slices ![1, 0, 2, 0] S1x16384x1x256
  slices_S4x16384x4x256_S1x16384x1x256_1_0_3_0 : S4x16384x4x256.Slices ![1, 0, 3, 0] S1x16384x1x256
  slices_S4x16384x4x256_S1x16384x1x256_2_0_0_0 : S4x16384x4x256.Slices ![2, 0, 0, 0] S1x16384x1x256
  slices_S4x16384x4x256_S1x16384x1x256_2_0_1_0 : S4x16384x4x256.Slices ![2, 0, 1, 0] S1x16384x1x256
  slices_S4x16384x4x256_S1x16384x1x256_2_0_2_0 : S4x16384x4x256.Slices ![2, 0, 2, 0] S1x16384x1x256
  slices_S4x16384x4x256_S1x16384x1x256_2_0_3_0 : S4x16384x4x256.Slices ![2, 0, 3, 0] S1x16384x1x256
  slices_S4x16384x4x256_S1x16384x1x256_3_0_0_0 : S4x16384x4x256.Slices ![3, 0, 0, 0] S1x16384x1x256
  slices_S4x16384x4x256_S1x16384x1x256_3_0_1_0 : S4x16384x4x256.Slices ![3, 0, 1, 0] S1x16384x1x256
  slices_S4x16384x4x256_S1x16384x1x256_3_0_2_0 : S4x16384x4x256.Slices ![3, 0, 2, 0] S1x16384x1x256
  slices_S4x16384x4x256_S1x16384x1x256_3_0_3_0 : S4x16384x4x256.Slices ![3, 0, 3, 0] S1x16384x1x256
  concatenates_S16384x256_S16384x256_S16384x256_S16384x256_S65536x256_d0 : Shape.Concatenates [S16384x256, S16384x256, S16384x256, S16384x256] S65536x256 0
  dot_S65536x256_S256x1024_S65536x1024_1_0_0_1_n_n_wf : DotDims.WF S65536x256 S256x1024 S65536x1024 [1] [0] [0] [1] [] []
  scatter_S4x16384x1024_S1_S16384x1024_01_0_0_0_wf : ScatterDims.WF S4x16384x1024 S1 S16384x1024 [0, 1] [0] [0] 0

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf
def scatter_S4x16384x1024_S1_S16384x1024_01_0_0_0 : ScatterDims S4x16384x1024 S1 S16384x1024 where
  updateWindowDims := [0, 1]
  insertedWindowDims := [0]
  scatterDimsToOperandDims := [0]
  indexVectorDim := 0
  wf := scatter_S4x16384x1024_S1_S16384x1024_01_0_0_0_wf

class Facts : Prop extends Facts₀ where

variable [Facts]
-- ==== Proof.BodyOutKernel.lean ====
/-
  What the kernel body leaves in the output tile, as one term over what it loads.

  The body loads the weights, the bias row and the four blades' row tiles whole, computes the four output blades'
  tiles, and stores tile `k` into slab `k` of the [4, 1024, 256] output buffer: four stores through the four slabs,
  which tile the buffer. Written over the generated payload names, so that the body's run and the value read off it
  speak of the same term.
-/
import proofs.«132976_j89300960018587_2_alg».proof.Proof.Gen.Kernel.Skeleton
import Idealize.ShloMosaic.Lib.Pipeline.FrameBody
import Idealize.ShloMosaic.Lib.Ring

set_option maxRecDepth 16384

noncomputable section

namespace Cert.Kernel.Body

open Cert.Kernel Cert.Kernel.Gen
open Idealize.ShloMosaic Idealize.SL.Sem

variable {F : FTy → Type} [FloatOps F]

/-- A blade's whole row tile, the whole weights, the whole bias row. -/
abbrev rX : Rect S1024x256 := Rect.unit (s := S1024x256) ![0, 0] S1024x256.size Facts₀.inb_S1024x256_S1024x256_0_0
abbrev rW : Rect S256x1024 := Rect.unit (s := S256x1024) ![0, 0] S256x1024.size Facts₀.inb_S256x1024_S256x1024_0_0
abbrev rB : Rect S1x1024 := Rect.unit (s := S1x1024) ![0, 0] S1x1024.size Facts₀.inb_S1x1024_S1x1024_0_0
/-- Slab `k` of the output tile. -/
abbrev rO0 : Rect S4x1024x256 := Rect.unit (s := S4x1024x256) ![0, 0, 0] S1x1024x256.size Facts₀.inb_S4x1024x256_S1x1024x256_0_0_0
abbrev rO1 : Rect S4x1024x256 := Rect.unit (s := S4x1024x256) ![1, 0, 0] S1x1024x256.size Facts₀.inb_S4x1024x256_S1x1024x256_1_0_0
abbrev rO2 : Rect S4x1024x256 := Rect.unit (s := S4x1024x256) ![2, 0, 0] S1x1024x256.size Facts₀.inb_S4x1024x256_S1x1024x256_2_0_0
abbrev rO3 : Rect S4x1024x256 := Rect.unit (s := S4x1024x256) ![3, 0, 0] S1x1024x256.size Facts₀.inb_S4x1024x256_S1x1024x256_3_0_0

/-- The four stored tiles, from the loaded row tiles `v4 v13 v28 v43` (blades 0 to 3), weights `v0` and bias row `v2`. -/
def tile0 (v0 : Vec F S256x1024 .bf16) (v2 : Vec F S1x1024 .f32) (v4 v13 v28 v43 : Vec F S1024x256 .f32) : FVec F S1x1024x256 .f32 :=
  k0_pay2 (k0_pay6 v0) (k0_pay11 v0 v2 v4 v13 v28) v43
def tile1 (v0 : Vec F S256x1024 .bf16) (v2 : Vec F S1x1024 .f32) (v4 v13 v28 v43 : Vec F S1024x256 .f32) : FVec F S1x1024x256 .f32 :=
  k0_pay3 (k0_pay6 v0) (k0_pay12 v0 v2 v4 v13 v28) v43
def tile2 (v0 : Vec F S256x1024 .bf16) (v2 : Vec F S1x1024 .f32) (v4 v13 v28 v43 : Vec F S1024x256 .f32) : FVec F S1x1024x256 .f32 :=
  k0_pay4 (k0_pay6 v0) (k0_pay13 v0 v2 v4 v13 v28) v43
def tile3 (v0 : Vec F S256x1024 .bf16) (v2 : Vec F S1x1024 .f32) (v4 v13 v28 v43 : Vec F S1024x256 .f32) : FVec F S1x1024x256 .f32 :=
  k0_pay5 (k0_pay6 v0) (k0_pay9 v0 v2 v4 v13) (k0_pay14 v0 v28) v43

/-- The output buffer after the body, from the six input buffers' contents (the four blades' row tiles, the weights,
    the bias row): its four stores as pieces, the last first. -/
def out (x0 x1 x2 x3 : Vec F S1024x256 .f32) (x4 : Vec F S256x1024 .bf16) (x5 : Vec F S1x1024 .f32) : Vec F S4x1024x256 .f32 :=
  View.canon
    [⟨rO3, tile3 (View.ld x4 rW) (View.ld x5 rB) (View.ld x0 rX) (View.ld x1 rX) (View.ld x2 rX) (View.ld x3 rX)⟩,
     ⟨rO2, tile2 (View.ld x4 rW) (View.ld x5 rB) (View.ld x0 rX) (View.ld x1 rX) (View.ld x2 rX) (View.ld x3 rX)⟩,
     ⟨rO1, tile1 (View.ld x4 rW) (View.ld x5 rB) (View.ld x0 rX) (View.ld x1 rX) (View.ld x2 rX) (View.ld x3 rX)⟩,
     ⟨rO0, tile0 (View.ld x4 rW) (View.ld x5 rB) (View.ld x0 rX) (View.ld x1 rX) (View.ld x2 rX) (View.ld x3 rX)⟩]

/-- The four slabs tile the buffer, so whatever is stored through them covers it. -/
theorem cover (p3 p2 p1 p0 : Vec F S1x1024x256 .f32) (y : S4x1024x256.Idx) :
    ∃ pc ∈ ([⟨rO3, p3⟩, ⟨rO2, p2⟩, ⟨rO1, p1⟩, ⟨rO0, p0⟩] : List (View.Piece (Elt F) S4x1024x256 .f32)), y ∈ pc.1.set :=
  View.cover_of_tiled [⟨rO3, p3⟩, ⟨rO2, p2⟩, ⟨rO1, p1⟩, ⟨rO0, p0⟩] S1x1024x256.size (by rfl) y

end Cert.Kernel.Body

end
-- ==== Proof.BodyRunKernel.lean ====
/-
  The kernel body's run on whole staging buffers.

  Holding the six input buffers at their contents and the output buffer at anything, the body runs to its return
  holding the inputs as they were and the output buffer at `Body.out` of the inputs' contents: it only loads the
  inputs, and its four stores through the four slabs cover the output buffer, so that what the buffer held before —
  which the body also loads, and never uses — is gone.
-/
import proofs.«132976_j89300960018587_2_alg».proof.Proof.BodyOutKernel
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body on whole staging buffers: inputs kept, the output buffer left at `Body.out` of the inputs. -/
theorem sound_kernel (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S1024x256 .f32) (harg3 : arg3.IsWhole) (arg4 : Memref sig .tc .vmem S1024x256 .f32) (harg4 : arg4.IsWhole)
    (arg5 : Memref sig .tc .vmem S256x1024 .bf16) (harg5 : arg5.IsWhole) (arg6 : Memref sig .tc .vmem S1x1024 .f32) (harg6 : arg6.IsWhole)
    (arg7 : Memref sig .tc .vmem S4x1024x256 .f32) (harg7 : arg7.IsWhole)
    (x0 x1 x2 x3 : Vec F S1024x256 .f32) (x4 : Vec F S256x1024 .bf16) (x5 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E
          (cc0_kernel i arg1 harg1 arg2 harg2 arg3 harg3 arg4 harg4 arg5 harg5 arg6 harg6 arg7 harg7) K := by
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover _ _ _ _)

end Cert.Kernel.Body

end
-- ==== Proof.DatKernel.lean ====
/-
  The pipeline's proof data and the body obligation.

  The four blades' windows all look at the one array of activations: the array is held in four quarter shares, one
  per window (an input array is only read, so any positive share serves); the weights, the bias row and the output
  array are held whole. After the body at a grid point each input window's buffer holds its block of the array as the
  region found it — fetched at that point or, for the weights and the bias row, once at the first point and left in
  place —, and the output window's buffer holds `Body.out` of the six input blocks.
-/
import proofs.«132976_j89300960018587_2_alg».proof.Proof.Gen.Kernel.Launch
import proofs.«132976_j89300960018587_2_alg».proof.Proof.Gen.Kernel.Points
import proofs.«132976_j89300960018587_2_alg».proof.Proof.BodyRunKernel
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point, fetched there or not, for any proof data whose
    array is the region-entry one and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The share of the activations each blade's window holds: the four quarters of the whole. -/
def quarter : Fin cfg0.W → PosShare TreeShare
  | ⟨0, _⟩ => fullShare.left.left
  | ⟨1, _⟩ => fullShare.left.right
  | ⟨2, _⟩ => fullShare.right.left
  | ⟨3, _⟩ => fullShare.right.right
  | ⟨4, _⟩ => fullShare
  | ⟨5, _⟩ => fullShare
  | ⟨6, _⟩ => fullShare

/-- The proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => Body.out (iblk V c 0 t) (iblk V c 1 t) (iblk V c 2 t) (iblk V c 3 t) (iblk V c 4 t) (iblk V c 5 t)
  Φ _ := Pipeline.ΦA spec0 c
  q := quarter
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t
    = Body.out (iblk V c 0 t) (iblk V c 1 t) (iblk V c 2 t) (iblk V c 3 t) (iblk V c 4 t) (iblk V c 5 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' buffers hold their blocks, so the body's run applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (Body.sound_kernel c Set.univ (grid0.coords t) _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dat (F := F) V c) (defs₀ (F := F)) Variants.none () Set.univ := fun t => by
  rw [bigSep_W0, bigSep_W0]
  exact sound_body V c t

end Cert.Kernel.Frame

end
-- ==== Proof.SharesKernel.lean ====
/-
  Dealing the arrays among the windows, and collecting them.

  The region is handed each distinct buffer behind its windows' arrays whole: the activations, the rounded weights,
  the bias row, the output array. The pipeline wants one holding per window. The activations' holding is halved and
  each half halved again, one quarter per blade's window, all four at the same contents; the other three buffers
  pass as they are. At the region's exit the four quarters, still at the contents the region found (an input array
  is never written), are put together again.
-/
import proofs.«132976_j89300960018587_2_alg».proof.Proof.DatKernel

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_v0, main_v1, main_v2] (by decide) (by decide) _

/-- Each window's array is a whole buffer: the pipeline's holdings window by window, each at its share. -/
theorem arrays_chain (c : Dev nD) (G : (w : Fin cfg0.W) → Buf (Elt F) ((cfg0.win w).arr.view.loc (c : Thread nD τ))) :
    ((dat V c).arrays G : sProp 𝕄)
      = iprop((((c : Thread nD τ).loc (Pipeline.arrRef spec0 0)) ↦{fullShare.left.left} G 0)
          ∗ (((c : Thread nD τ).loc (Pipeline.arrRef spec0 1)) ↦{fullShare.left.right} G 1)
          ∗ (((c : Thread nD τ).loc (Pipeline.arrRef spec0 2)) ↦{fullShare.right.left} G 2)
          ∗ (((c : Thread nD τ).loc (Pipeline.arrRef spec0 3)) ↦{fullShare.right.right} G 3)
          ∗ (((c : Thread nD τ).loc (Pipeline.arrRef spec0 4)) ↦{fullShare} G 4)
          ∗ (((c : Thread nD τ).loc (Pipeline.arrRef spec0 5)) ↦{fullShare} G 5)
          ∗ (((c : Thread nD τ).loc (Pipeline.arrRef spec0 6)) ↦{fullShare} G 6)) := by
  have h : ((dat V c).arrays G : sProp 𝕄)
      = bigSep Finset.univ fun w => ((((c : Thread nD τ).loc (Pipeline.arrRef spec0 w)) ↦{(dat V c).share w} G w : sProp 𝕄)) := by
    unfold Dat.arrays
    exact bigSep_congr fun w _ => by rw [(arr_whole0 w).set_eq_univ]
  rw [h, bigSep_W0]
  rfl

/-- Dealing: the buffers behind the arrays, whole at contents `W`, make the pipeline's holdings at `G`, which names
    each window's array at `W`'s contents. -/
theorem deal (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (Pipeline.arrBufs (Ix := Unit) (Name := ℕ) (U := UR sig nD τ) (Lvl := ℕ) spec0 c W : sProp 𝕄) ⊢ (dat V c).arrays G := by
  rw [arrBufs_chain, arrays_chain, hG 0, hG 1, hG 2, hG 3, hG 4, hG 5, hG 6]
  iintro ⟨Ha, H4, H5, H6⟩
  ihave Hh := (pointsTo_share (PosShare.mem_left_op_right fullShare)).1 $$ Ha
  icases Hh with ⟨HL, HR⟩
  ihave HLs := (pointsTo_share (PosShare.mem_left_op_right fullShare.left)).1 $$ HL
  icases HLs with ⟨HLL, HLR⟩
  ihave HRs := (pointsTo_share (PosShare.mem_left_op_right fullShare.right)).1 $$ HR
  icases HRs with ⟨HRL, HRR⟩
  isplitl [HLL]; · iexact HLL
  isplitl [HLR]; · iexact HLR
  isplitl [HRL]; · iexact HRL
  isplitl [HRR]; · iexact HRR
  isplitl [H4]; · iexact H4
  isplitl [H5]; · iexact H5
  iexact H6

/-- Collecting: the pipeline's holdings at `G`, which names each window's array at `W`'s contents, are the buffers
    behind the arrays whole at `W`. -/
theorem collect (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    ((dat V c).arrays G : sProp 𝕄) ⊢ Pipeline.arrBufs (Ix := Unit) (Name := ℕ) (U := UR sig nD τ) (Lvl := ℕ) spec0 c W := by
  rw [arrBufs_chain, arrays_chain, hG 0, hG 1, hG 2, hG 3, hG 4, hG 5, hG 6]
  iintro ⟨HLL, HLR, HRL, HRR, H4, H5, H6⟩
  ihave HL := (pointsTo_share (PosShare.mem_left_op_right fullShare.left)).2 $$ [HLL HLR]
  · isplitl [HLL]; · iexact HLL
    iexact HLR
  ihave HR := (pointsTo_share (PosShare.mem_left_op_right fullShare.right)).2 $$ [HRL HRR]
  · isplitl [HRL]; · iexact HRL
    iexact HRR
  ihave Ha := (pointsTo_share (PosShare.mem_left_op_right fullShare)).2 $$ [HL HR]
  · isplitl [HL]; · iexact HL
    iexact HR
  isplitl [Ha]; · iexact Ha
  isplitl [H4]; · iexact H4
  isplitl [H5]; · iexact H5
  iexact H6

end Cert.Kernel.Frame

end
-- ==== Proof.LibRegionShared.lean ====
/-
  A kernel region among the segments of a host program, for a kernel whose INPUT windows may share an array.

  A program of several kernel regions is run segment by segment, the thread state between two segments being
  "every unscoped buffer of the core at a known valuation, and the rest". A region takes the arrays its windows
  look at out of that state when it is entered and puts them back, at what the write-backs left, when it is left.
  When two input windows look at one array the array cannot be handed over once per window at the full share: the
  one buffer behind them is dealt among the windows. This file builds the region's record for such a kernel with
  that one step — dealing the buffers behind the arrays at entry (`hsplit`) and collecting them at exit (`hjoin`) —
  left as hypotheses, and everything else (the unscoped rest riding past the region, the core owing nothing, no
  semaphore of the kernel's own, no prefetched table) discharged once. The invariant's two ends (`hin`, `hout`)
  stay hypotheses too, so that a kernel that carries scratch contents from one grid point to the next is covered
  as well as one whose invariant is the same at every point.
-/
import Idealize.ShloMosaic.Lib.Pipeline.Frame
import Idealize.ShloMosaic.Lib.Pipeline.Regions
import Idealize.ShloMosaic.Lib.Pipeline.RegionsLoop

noncomputable section

namespace Cert.LibRegionShared

open Idealize.ShloMosaic Idealize.ShloMosaic.Pipeline
open Idealize.SL
open Idealize.SL.BI (sProp bigSep bigSep_congr)
open scoped Idealize.SL.BI
open Idealize.SL.BI.BIBase Idealize.SL.BI.Laws Idealize.SL.Sem Idealize.SL.ProofMode
open Idealize.SL.RA
open Idealize.ShloMosaic.TcCoe
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]
variable {Λ₀ : Idealize.SL.Sem.Labels} {P : Type} [Fintype P]

local notation "𝕄" => MT nD τ sig Ix Val Name U Lvl

variable (pcs : P → PCfg sig Λ₀ Val) (a : (p : P) → (pcs p).Adm)
  (pdats : (p : P) → (c : Dev nD) → Dat τ Val Ix Name U Lvl (pin pcs a p) c) (ι : Ix)
  (defs₀ : Defs nD τ sig Val Λ₀) (𝒱₀ : Variants)
  (L : GSem nD τ sig → Finset Ix) (lv : GSem nD τ sig → Ix → Lvl) (p : P)

/-- The unscoped buffers held at a valuation are the buffers behind the windows' arrays and the unscoped rest,
    whether or not two windows share an array. -/
theorem held_split (hu : ∀ w, (arrRef (pin pcs a p).spec w).isScoped = false) (c : Dev nD) (W : Valuation τ sig Val) :
    (StableHlo.held (c.tc : Thread nD τ) (ucRefs τ sig) W : sProp 𝕄)
      = iprop(arrBufs (pin pcs a p).spec c (fun b => W b) ∗ unscopedRest (pin pcs a p).spec c (fun b => W b)) := by
  rw [← unscopedBufs_held (Ix := Ix) (Name := Name) (U := U) (Lvl := Lvl) c W, unscopedBufs_split₀ (pin pcs a) p hu c]

set_option backward.isDefEq.respectTransparency.types false in
/-- THE REGION'S RECORD. Entered from every unscoped buffer at `Win c`, `X c` and the core owing nothing; left at
    every unscoped buffer at `Wout c`, `Y c` and the core owing nothing. `Wout` differs from `Win` only at the
    windows' arrays (`hrest`). -/
def region
    (hw : WinFacts₀ (pcs p).spec)
    (hne : ∀ w : Fin (pin pcs a p).W, 0 < ((pin pcs a p).spec w).block.numel)
    (hstage : ∀ (w : Fin (pin pcs a p).W) (s : Fin ((pin pcs a p).spec w).nbuf), (((pin pcs a p).spec w).stage s).IsWhole)
    (hbody : ∀ c, BodyObligationLoose (pdats p c) defs₀ 𝒱₀ ι Set.univ)
    (howed : ∀ c t, (pdats p c).owed t = 0)
    (hrec : ∀ c, (pdats p c).recorded 0 = Set.univ)
    (hnotab : ∀ c, (prefHeld (pcs p).pre c (fun _ => fullShare) (a p).1 : sProp 𝕄) = BI.emp)
    (Win Wout : Dev nD → Valuation τ sig Val)
    (X Y : Dev nD → sProp 𝕄)
    (hsplit : ∀ c, (arrBufs (pin pcs a p).spec c (fun b => Win c b) : sProp 𝕄) ⊢ (pdats p c).arrays ((pdats p c).arrAt · 0))
    (hjoin : ∀ c, (pdats p c).arrays ((pdats p c).arrAt · (pin pcs a p).N) ⊢ (arrBufs (pin pcs a p).spec c (fun b => Wout c b) : sProp 𝕄))
    (hrest : ∀ c (b : Ref sig .tc), b ∉ Finset.univ.image (arrRef (pin pcs a p).spec) → Wout c b = Win c b)
    (hin : ∀ c, iprop(X c ∗ scopedRest (pin pcs a p).spec c) ⊢ (pdats p c).Φ 0)
    (hout : ∀ c, (pdats p c).Φ (Fin.last (pin pcs a p).N) ⊢ iprop(Y c ∗ scopedRest (pin pcs a p).spec c)) :
    RegionSeg pcs a pdats ι defs₀ 𝒱₀ L lv p where
  win := hw
  block_pos := hne
  stage_whole := hstage
  K := PEmpty
  osem k := k.elim
  ho := OwnSemFacts.none _
  hbody := hbody
  hwaits := hwaits_of_owed_zero pcs a pdats ι L lv p howed
  pre c := iprop(StableHlo.held (c.tc : Thread nD τ) (ucRefs τ sig) (Win c) ∗ X c ∗ ∃ W, owes (c.tc : Thread nD τ) (0 : CellTallies nD τ sig Ix) W)
  post c := iprop(StableHlo.held (c.tc : Thread nD τ) (ucRefs τ sig) (Wout c) ∗ Y c ∗ ∃ W, owes (c.tc : Thread nD τ) (0 : CellTallies nD τ sig Ix) W)
  X := X
  Y := Y
  Z c := unscopedRest (pin pcs a p).spec c (fun b => Win c b)
  hentry c := by
    rw [ownSems0_none, held_split pcs a p hw.arr_unscoped c (Win c)]
    iintro ⟨⟨⟨Ha, Hrest⟩, HX, HO⟩, -, -⟩
    ihave Ha' := (hsplit c) $$ Ha
    imodintro
    isplitl [Ha']; · iexact Ha'
    isplitr; · rw [hnotab c]; iempintro
    isplitl [HO]
    · unfold Dat.owesAt owesWithin
      icases HO with ⟨%W, HO⟩; iexists W
      isplitr; · ipureintro; unfold Dat.bound; rw [hrec c]; exact fun _ _ => Or.inl trivial
      rw [howed c 0]; iexact HO
    isplitl [HX]; · iexact HX
    iexact Hrest
  hin c := by
    rw [hnotab c]
    iintro ⟨HX, -, Hr⟩
    iapply (hin c)
    isplitl [HX] <;> iassumption
  hout c := by
    rw [ownSems0_none]
    refine (hout c).trans ?_
    iintro ⟨HY, Hr⟩
    isplitl [HY]; · iexact HY
    isplitr; · iempintro
    iexact Hr
  hexit c := by
    rw [held_split pcs a p hw.arr_unscoped c (Wout c)]
    have e : (unscopedRest (pin pcs a p).spec c (fun b => Win c b) : sProp 𝕄) = unscopedRest (pin pcs a p).spec c (fun b => Wout c b) := by
      unfold unscopedRest
      exact bigSep_congr fun b hb => by beta_reduce; rw [hrest c b (Finset.mem_sdiff.mp hb).2]
    iintro ⟨Ha, HO, HY, Hrest⟩
    ihave Ha' := (hjoin c) $$ Ha
    imodintro
    isplitl [Ha' Hrest]
    · rw [← e]; isplitl [Ha'] <;> iassumption
    isplitl [HY]; · iexact HY
    unfold Dat.owesAt owesWithin
    icases HO with ⟨%W, -, HO⟩; iexists W
    rw [howed c] at *; iexact HO

end Cert.LibRegionShared

end
-- ==== Proof.RunKernel.lean ====
/-
  The run of @main: the host lines before the kernel region, the region, the host line after it.

  Between two of these the core holds every unscoped buffer whole at a known valuation: the launch contents `W0`;
  after the two host lines (the weights rounded, the bias laid as a row) `W1`, which is what the region finds; after
  the region `W2`, which is `W1` but for the output array, at what the write-backs of every grid point left; after the
  last host line (the output re-laid as [65536, 256]) `W3`. The region takes the buffers behind its windows' arrays out
  of that state, deals the activations among the four blades' windows, and puts everything back at its exit. The run
  ends with every unscoped buffer read against the final memory at `W3`.
-/
import proofs.«132976_j89300960018587_2_alg».proof.Proof.SharesKernel
import proofs.«132976_j89300960018587_2_alg».proof.Proof.LibRegionShared
import Idealize.ShloMosaic.Lib.Pipeline.RegionsLoop
import Idealize.ShloMosaic.Lib.Pipeline.FrameSuffix

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the two host lines before the region: what the region finds. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the region's exit: the output array at what the write-backs left, every other buffer as the region found it. -/
def W2 (c : Dev nD) : Valuation τ sig (Elt F) :=
  Function.update (W1 m ρ c) main_v2 ((dat (V1 m ρ) c).arrAt 6 cfg0.N)
/-- After the host line that follows the region. -/
abbrev W3 : Dev nD → Valuation τ sig (Elt F) := fun c => StableHlo.after hostOps1 (W2 m ρ c)

theorem W2_out (c : Dev nD) : W2 m ρ c main_v2 = (dat (V1 m ρ) c).arrAt 6 cfg0.N := by
  unfold W2; exact Function.update_self ..
theorem W2_of_ne (c : Dev nD) (b : Ref sig .tc) (hb : b ≠ main_v2) : W2 m ρ c b = W1 m ρ c b := by
  unfold W2; exact Function.update_of_ne (StableHlo.devRef_ne_of_ne hb) ..

/-- At the region's exit each window's array holds what the pipeline leaves: an input's array what the region found,
    the output array its write-backs. -/
theorem exit_arrays (c : Dev nD) (w : Fin cfg0.W) :
    (dat (V1 m ρ) c).arrAt w cfg0.N = (fun b : Ref sig .tc => W2 m ρ c b) (Pipeline.arrRef spec0 w) :=
  match w with
  | ⟨0, _⟩ => (((dat (V1 m ρ) c).arrAt_in 0 rfl _).trans (A_eq (V1 m ρ) c 0)).trans (W2_of_ne m ρ c main_arg0 (by decide)).symm
  | ⟨1, _⟩ => (((dat (V1 m ρ) c).arrAt_in 1 rfl _).trans (A_eq (V1 m ρ) c 1)).trans (W2_of_ne m ρ c main_arg0 (by decide)).symm
  | ⟨2, _⟩ => (((dat (V1 m ρ) c).arrAt_in 2 rfl _).trans (A_eq (V1 m ρ) c 2)).trans (W2_of_ne m ρ c main_arg0 (by decide)).symm
  | ⟨3, _⟩ => (((dat (V1 m ρ) c).arrAt_in 3 rfl _).trans (A_eq (V1 m ρ) c 3)).trans (W2_of_ne m ρ c main_arg0 (by decide)).symm
  | ⟨4, _⟩ => (((dat (V1 m ρ) c).arrAt_in 4 rfl _).trans (A_eq (V1 m ρ) c 4)).trans (W2_of_ne m ρ c main_v0 (by decide)).symm
  | ⟨5, _⟩ => (((dat (V1 m ρ) c).arrAt_in 5 rfl _).trans (A_eq (V1 m ρ) c 5)).trans (W2_of_ne m ρ c main_v1 (by decide)).symm
  | ⟨6, _⟩ => (W2_out m ρ c).symm

/-- A buffer that is no window's array is as the region found it. -/
theorem exit_rest (c : Dev nD) (b : Ref sig .tc) (hb : b ∉ Finset.univ.image (Pipeline.arrRef spec0)) : W2 m ρ c b = W1 m ρ c b :=
  W2_of_ne m ρ c b fun e => hb (Finset.mem_image.mpr ⟨6, Finset.mem_univ _, e.symm⟩)

/-! ## The proof data family and the thread state -/

abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A stretch of host lines as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The kernel region: entered from every unscoped buffer at `W1`, left at `W2`. -/
def reg0 : Pipeline.RegionSeg (pcfgs (F := F)) adm (pdats m ρ) () defs₀ 𝒱₀ L lv 0 :=
  Cert.LibRegionShared.region (pcfgs (F := F)) adm (pdats m ρ) () defs₀ 𝒱₀ L lv 0
    winFacts₀0 block_pos0 stage_whole0
    (fun c => (body_obligation (V1 m ρ) c).loose) (fun _ _ => rfl) (fun _ => rfl)
    (fun c => by unfold Pipeline.prefHeld; rw [show (Finset.univ : Finset (Fin 0)) = ∅ from rfl, BI.bigSep_empty])
    (W1 m ρ) (W2 m ρ) (fun c => iprop(∃ r, prngReg c r)) (fun c => iprop(∃ r, prngReg c r))
    (fun c => deal (V1 m ρ) c (fun b => W1 m ρ c b) _ (fun w => A_eq (V1 m ρ) c w))
    (fun c => collect (V1 m ρ) c (fun b => W2 m ρ c b) _ (exit_arrays m ρ c))
    (fun c b hb => exit_rest m ρ c b hb)
    (fun c => by
      rw [show (pdats m ρ 0 c).Φ 0 = Pipeline.ΦA spec0 c from rfl]; unfold Pipeline.ΦA
      iintro ⟨Hp, Hr⟩
      isplitl [Hr]; · iexact Hr
      iexact Hp)
    (fun c => by
      rw [show (pdats m ρ 0 c).Φ (Fin.last _) = Pipeline.ΦA spec0 c from rfl]; unfold Pipeline.ΦA
      iintro ⟨Hr, Hp⟩
      isplitl [Hp]; · iexact Hp
      iexact Hr)

/-! ## @main as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final memory holds every unscoped buffer at `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Frame

end
-- ==== Proof.RunReadKernel.lean ====
/-
  The run of @main read at the buffers the claims speak of.

  No host line writes an argument and the region only reads the activations, so each argument's buffer ends as
  launched; the result is the host's last line — the [4, 16384, 256] output array re-laid as [65536, 256] — of what the
  region's write-backs left in the output array.
-/
import proofs.«132976_j89300960018587_2_alg».proof.Proof.RunKernel

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- No host line and no write-back touches argument 0: it ends as launched. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
/-- No host line and no write-back touches argument 1: it ends as launched. -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
/-- No host line and no write-back touches argument 2: it ends as launched. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The result: the output array, as the write-backs left it, re-laid as [65536, 256]. -/
theorem W3_out (c : Dev nD) : W3 m ρ c (Proc.devRef .tc main_v3)
    = shapeCast S65536x256 ((dat (V1 m ρ) c).arrAt 6 cfg0.N) Facts₀.shapeCasts_S4x16384x256_S65536x256 := by
  show StableHlo.after hostOps1 (W2 m ρ c) (Proc.devRef .tc main_v3) = _
  after_results
  rw [show W2 m ρ c (Proc.devRef .tc main_v2) = (dat (V1 m ρ) c).arrAt 6 cfg0.N from W2_out m ρ c]
  try rfl

/-- What the region finds in the three arrays its windows look at: the activations as launched, the weights rounded
    (the host's first line), the bias laid as a row (its second). -/
theorem V1_x (c : Dev nD) : V1 m ρ c main_arg0 = m ((c : Thread nD τ).loc main_arg0) :=
  (StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_w (c : Dev nD) : V1 m ρ c main_v0 = truncf .bf16 (m ((c : Thread nD τ).loc main_arg1)) Facts₀.bitsLt_bf16_f32 := by
  show StableHlo.after hostOps0 (W0 m ρ c) (Proc.devRef .tc main_v0) = _
  after_results <;> rfl
theorem V1_b (c : Dev nD) : V1 m ρ c main_v1 = shapeCast S1x1024 (m ((c : Thread nD τ).loc main_arg2)) Facts₀.shapeCasts_S1024_S1x1024 := by
  show StableHlo.after hostOps0 (W0 m ρ c) (Proc.devRef .tc main_v1) = _
  after_results <;> rfl

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_arg0 m ρ c),
     (h c _ (mem_uc main_arg1 (by decide))).trans (W3_arg1 m ρ c),
     (h c _ (mem_uc main_arg2 (by decide))).trans (W3_arg2 m ρ c)⟩) (run_main m ρ)

/-- The run with the result named: the re-laid output array, and the arguments as launched. -/
theorem run_out : θ_run defs (onTc (τ := τ) (main (F := F))) ⟨m, fun _ => 0, ρ⟩ (fun r => ∀ c : Dev nD,
      r.2.mem ((c.tc : Thread nD τ).loc main_v3)
        = shapeCast S65536x256 ((dat (V1 m ρ) c).arrAt 6 cfg0.N) Facts₀.shapeCasts_S4x16384x256_S65536x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v3 (by decide))).trans (W3_out m ρ c),
     (h c _ (mem_uc main_arg0 (by decide))).trans (W3_arg0 m ρ c),
     (h c _ (mem_uc main_arg1 (by decide))).trans (W3_arg1 m ρ c),
     (h c _ (mem_uc main_arg2 (by decide))).trans (W3_arg2 m ρ c)⟩) (run_main m ρ)

end Cert.Kernel.Frame

end
-- ==== Proof.BodyOutIdeal.lean ====
/-
  What the kernel body leaves in the output tile, as one term over what it loads.

  The body loads the weights, the bias row and the four blades' row tiles whole, computes the four output blades'
  tiles, and stores tile `k` into slab `k` of the [4, 1024, 256] output buffer: four stores through the four slabs,
  which tile the buffer. Written over the generated payload names, so that the body's run and the value read off it
  speak of the same term.
-/
import proofs.«132976_j89300960018587_2_alg».proof.Proof.Gen.KernelIdeal.Skeleton
import Idealize.ShloMosaic.Lib.Pipeline.FrameBody
import Idealize.ShloMosaic.Lib.Ring

set_option maxRecDepth 16384

noncomputable section

namespace Cert.KernelIdeal.Body

open Cert.KernelIdeal Cert.KernelIdeal.Gen
open Idealize.ShloMosaic Idealize.SL.Sem

variable {F : FTy → Type} [FloatOps F]

/-- A blade's whole row tile, the whole weights, the whole bias row. -/
abbrev rX : Rect S1024x256 := Rect.unit (s := S1024x256) ![0, 0] S1024x256.size Facts₀.inb_S1024x256_S1024x256_0_0
abbrev rW : Rect S256x1024 := Rect.unit (s := S256x1024) ![0, 0] S256x1024.size Facts₀.inb_S256x1024_S256x1024_0_0
abbrev rB : Rect S1x1024 := Rect.unit (s := S1x1024) ![0, 0] S1x1024.size Facts₀.inb_S1x1024_S1x1024_0_0
/-- Slab `k` of the output tile. -/
abbrev rO0 : Rect S4x1024x256 := Rect.unit (s := S4x1024x256) ![0, 0, 0] S1x1024x256.size Facts₀.inb_S4x1024x256_S1x1024x256_0_0_0
abbrev rO1 : Rect S4x1024x256 := Rect.unit (s := S4x1024x256) ![1, 0, 0] S1x1024x256.size Facts₀.inb_S4x1024x256_S1x1024x256_1_0_0
abbrev rO2 : Rect S4x1024x256 := Rect.unit (s := S4x1024x256) ![2, 0, 0] S1x1024x256.size Facts₀.inb_S4x1024x256_S1x1024x256_2_0_0
abbrev rO3 : Rect S4x1024x256 := Rect.unit (s := S4x1024x256) ![3, 0, 0] S1x1024x256.size Facts₀.inb_S4x1024x256_S1x1024x256_3_0_0

/-- The four stored tiles, from the loaded row tiles `v4 v13 v28 v43` (blades 0 to 3), weights `v0` and bias row `v2`. -/
def tile0 (v0 : Vec F S256x1024 .bf16) (v2 : Vec F S1x1024 .f32) (v4 v13 v28 v43 : Vec F S1024x256 .f32) : FVec F S1x1024x256 .f32 :=
  k0_pay2 (k0_pay6 v0) (k0_pay11 v0 v2 v4 v13 v28) v43
def tile1 (v0 : Vec F S256x1024 .bf16) (v2 : Vec F S1x1024 .f32) (v4 v13 v28 v43 : Vec F S1024x256 .f32) : FVec F S1x1024x256 .f32 :=
  k0_pay3 (k0_pay6 v0) (k0_pay12 v0 v2 v4 v13 v28) v43
def tile2 (v0 : Vec F S256x1024 .bf16) (v2 : Vec F S1x1024 .f32) (v4 v13 v28 v43 : Vec F S1024x256 .f32) : FVec F S1x1024x256 .f32 :=
  k0_pay4 (k0_pay6 v0) (k0_pay13 v0 v2 v4 v13 v28) v43
def tile3 (v0 : Vec F S256x1024 .bf16) (v2 : Vec F S1x1024 .f32) (v4 v13 v28 v43 : Vec F S1024x256 .f32) : FVec F S1x1024x256 .f32 :=
  k0_pay5 (k0_pay6 v0) (k0_pay9 v0 v2 v4 v13) (k0_pay14 v0 v28) v43

/-- The output buffer after the body, from the six input buffers' contents (the four blades' row tiles, the weights,
    the bias row): its four stores as pieces, the last first. -/
def out (x0 x1 x2 x3 : Vec F S1024x256 .f32) (x4 : Vec F S256x1024 .bf16) (x5 : Vec F S1x1024 .f32) : Vec F S4x1024x256 .f32 :=
  View.canon
    [⟨rO3, tile3 (View.ld x4 rW) (View.ld x5 rB) (View.ld x0 rX) (View.ld x1 rX) (View.ld x2 rX) (View.ld x3 rX)⟩,
     ⟨rO2, tile2 (View.ld x4 rW) (View.ld x5 rB) (View.ld x0 rX) (View.ld x1 rX) (View.ld x2 rX) (View.ld x3 rX)⟩,
     ⟨rO1, tile1 (View.ld x4 rW) (View.ld x5 rB) (View.ld x0 rX) (View.ld x1 rX) (View.ld x2 rX) (View.ld x3 rX)⟩,
     ⟨rO0, tile0 (View.ld x4 rW) (View.ld x5 rB) (View.ld x0 rX) (View.ld x1 rX) (View.ld x2 rX) (View.ld x3 rX)⟩]

/-- The four slabs tile the buffer, so whatever is stored through them covers it. -/
theorem cover (p3 p2 p1 p0 : Vec F S1x1024x256 .f32) (y : S4x1024x256.Idx) :
    ∃ pc ∈ ([⟨rO3, p3⟩, ⟨rO2, p2⟩, ⟨rO1, p1⟩, ⟨rO0, p0⟩] : List (View.Piece (Elt F) S4x1024x256 .f32)), y ∈ pc.1.set :=
  View.cover_of_tiled [⟨rO3, p3⟩, ⟨rO2, p2⟩, ⟨rO1, p1⟩, ⟨rO0, p0⟩] S1x1024x256.size (by rfl) y

end Cert.KernelIdeal.Body

end
-- ==== Proof.BodyRunIdeal.lean ====
/-
  The kernel body's run on whole staging buffers.

  Holding the six input buffers at their contents and the output buffer at anything, the body runs to its return
  holding the inputs as they were and the output buffer at `Body.out` of the inputs' contents: it only loads the
  inputs, and its four stores through the four slabs cover the output buffer, so that what the buffer held before —
  which the body also loads, and never uses — is gone.
-/
import proofs.«132976_j89300960018587_2_alg».proof.Proof.BodyOutIdeal
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
/-- The body on whole staging buffers: inputs kept, the output buffer left at `Body.out` of the inputs. -/
theorem sound_kernel (c : Dev nD) (E : Set ℕ) (i : grid0.Coords)
    (arg1 : Memref sig .tc .vmem S1024x256 .f32) (harg1 : arg1.IsWhole) (arg2 : Memref sig .tc .vmem S1024x256 .f32) (harg2 : arg2.IsWhole)
    (arg3 : Memref sig .tc .vmem S1024x256 .f32) (harg3 : arg3.IsWhole) (arg4 : Memref sig .tc .vmem S1024x256 .f32) (harg4 : arg4.IsWhole)
    (arg5 : Memref sig .tc .vmem S256x1024 .bf16) (harg5 : arg5.IsWhole) (arg6 : Memref sig .tc .vmem S1x1024 .f32) (harg6 : arg6.IsWhole)
    (arg7 : Memref sig .tc .vmem S4x1024x256 .f32) (harg7 : arg7.IsWhole)
    (x0 x1 x2 x3 : Vec F S1024x256 .f32) (x4 : Vec F S256x1024 .bf16) (x5 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out x0 x1 x2 x3 x4 x5)) -∗ K ⟨⟩))
      ⊢ wp frame (wpE (defs₀ (F := F)) Variants.none c none) E
          (cc0_kernel i arg1 harg1 arg2 harg2 arg3 harg3 arg4 harg4 arg5 harg5 arg6 harg6 arg7 harg7) K := by
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover _ _ _ _)

end Cert.KernelIdeal.Body

end
-- ==== Proof.DatIdeal.lean ====
/-
  The pipeline's proof data and the body obligation.

  The four blades' windows all look at the one array of activations: the array is held in four quarter shares, one
  per window (an input array is only read, so any positive share serves); the weights, the bias row and the output
  array are held whole. After the body at a grid point each input window's buffer holds its block of the array as the
  region found it — fetched at that point or, for the weights and the bias row, once at the first point and left in
  place —, and the output window's buffer holds `Body.out` of the six input blocks.
-/
import proofs.«132976_j89300960018587_2_alg».proof.Proof.Gen.KernelIdeal.Launch
import proofs.«132976_j89300960018587_2_alg».proof.Proof.Gen.KernelIdeal.Points
import proofs.«132976_j89300960018587_2_alg».proof.Proof.BodyRunIdeal
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current buffer holds its block at every point, fetched there or not, for any proof data whose
    array is the region-entry one and whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- The share of the activations each blade's window holds: the four quarters of the whole. -/
def quarter : Fin cfg0.W → PosShare TreeShare
  | ⟨0, _⟩ => fullShare.left.left
  | ⟨1, _⟩ => fullShare.left.right
  | ⟨2, _⟩ => fullShare.right.left
  | ⟨3, _⟩ => fullShare.right.right
  | ⟨4, _⟩ => fullShare
  | ⟨5, _⟩ => fullShare
  | ⟨6, _⟩ => fullShare

/-- The proof data on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => Body.out (iblk V c 0 t) (iblk V c 1 t) (iblk V c 2 t) (iblk V c 3 t) (iblk V c 4 t) (iblk V c 5 t)
  Φ _ := Pipeline.ΦA spec0 c
  q := quarter
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = iblk V c 5 t := by dsimp only [dat]
theorem after_6 (c : Dev nD) (t : Fin cfg0.N) : (dat V c).after 6 t
    = Body.out (iblk V c 0 t) (iblk V c 1 t) (iblk V c 2 t) (iblk V c 3 t) (iblk V c 4 t) (iblk V c 5 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d
theorem before_5 (c : Dev nD) (t : Fin cfg0.N) (d) : (dat V c).before 5 t d = iblk V c 5 t :=
  before_5_of V (dat V c) (A_eq V c 5) (after_5 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' buffers hold their blocks, so the body's run applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (Body.sound_kernel c Set.univ (grid0.coords t) _ _ _ _ _ _ _ _ _ _ _ _ _ _
    (iblk V c 0 t) (iblk V c 1 t) (iblk V c 2 t) (iblk V c 3 t) (iblk V c 4 t) (iblk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation, at every point. -/
theorem body_obligation (c : Dev nD) : BodyObligation (dat (F := F) V c) (defs₀ (F := F)) Variants.none () Set.univ := fun t => by
  rw [bigSep_W0, bigSep_W0]
  exact sound_body V c t

end Cert.KernelIdeal.Frame

end
-- ==== Proof.SharesIdeal.lean ====
/-
  Dealing the arrays among the windows, and collecting them.

  The region is handed each distinct buffer behind its windows' arrays whole: the activations, the rounded weights,
  the bias row, the output array. The pipeline wants one holding per window. The activations' holding is halved and
  each half halved again, one quarter per blade's window, all four at the same contents; the other three buffers
  pass as they are. At the region's exit the four quarters, still at the contents the region found (an input array
  is never written), are put together again.
-/
import proofs.«132976_j89300960018587_2_alg».proof.Proof.DatIdeal

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind the windows' arrays, one by one. -/
theorem arrBufs_chain (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_v0, main_v1, main_v2] (by decide) (by decide) _

/-- Each window's array is a whole buffer: the pipeline's holdings window by window, each at its share. -/
theorem arrays_chain (c : Dev nD) (G : (w : Fin cfg0.W) → Buf (Elt F) ((cfg0.win w).arr.view.loc (c : Thread nD τ))) :
    ((dat V c).arrays G : sProp 𝕄)
      = iprop((((c : Thread nD τ).loc (Pipeline.arrRef spec0 0)) ↦{fullShare.left.left} G 0)
          ∗ (((c : Thread nD τ).loc (Pipeline.arrRef spec0 1)) ↦{fullShare.left.right} G 1)
          ∗ (((c : Thread nD τ).loc (Pipeline.arrRef spec0 2)) ↦{fullShare.right.left} G 2)
          ∗ (((c : Thread nD τ).loc (Pipeline.arrRef spec0 3)) ↦{fullShare.right.right} G 3)
          ∗ (((c : Thread nD τ).loc (Pipeline.arrRef spec0 4)) ↦{fullShare} G 4)
          ∗ (((c : Thread nD τ).loc (Pipeline.arrRef spec0 5)) ↦{fullShare} G 5)
          ∗ (((c : Thread nD τ).loc (Pipeline.arrRef spec0 6)) ↦{fullShare} G 6)) := by
  have h : ((dat V c).arrays G : sProp 𝕄)
      = bigSep Finset.univ fun w => ((((c : Thread nD τ).loc (Pipeline.arrRef spec0 w)) ↦{(dat V c).share w} G w : sProp 𝕄)) := by
    unfold Dat.arrays
    exact bigSep_congr fun w _ => by rw [(arr_whole0 w).set_eq_univ]
  rw [h, bigSep_W0]
  rfl

/-- Dealing: the buffers behind the arrays, whole at contents `W`, make the pipeline's holdings at `G`, which names
    each window's array at `W`'s contents. -/
theorem deal (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    (Pipeline.arrBufs (Ix := Unit) (Name := ℕ) (U := UR sig nD τ) (Lvl := ℕ) spec0 c W : sProp 𝕄) ⊢ (dat V c).arrays G := by
  rw [arrBufs_chain, arrays_chain, hG 0, hG 1, hG 2, hG 3, hG 4, hG 5, hG 6]
  iintro ⟨Ha, H4, H5, H6⟩
  ihave Hh := (pointsTo_share (PosShare.mem_left_op_right fullShare)).1 $$ Ha
  icases Hh with ⟨HL, HR⟩
  ihave HLs := (pointsTo_share (PosShare.mem_left_op_right fullShare.left)).1 $$ HL
  icases HLs with ⟨HLL, HLR⟩
  ihave HRs := (pointsTo_share (PosShare.mem_left_op_right fullShare.right)).1 $$ HR
  icases HRs with ⟨HRL, HRR⟩
  isplitl [HLL]; · iexact HLL
  isplitl [HLR]; · iexact HLR
  isplitl [HRL]; · iexact HRL
  isplitl [HRR]; · iexact HRR
  isplitl [H4]; · iexact H4
  isplitl [H5]; · iexact H5
  iexact H6

/-- Collecting: the pipeline's holdings at `G`, which names each window's array at `W`'s contents, are the buffers
    behind the arrays whole at `W`. -/
theorem collect (c : Dev nD) (W : (b : Ref sig .tc) → Buf (Elt F) ((c : Thread nD τ).loc b))
    (G : (w : Fin cfg0.W) → Buf (Elt F) ((cfg0.win w).arr.view.loc (c : Thread nD τ)))
    (hG : ∀ w, G w = W (Pipeline.arrRef spec0 w)) :
    ((dat V c).arrays G : sProp 𝕄) ⊢ Pipeline.arrBufs (Ix := Unit) (Name := ℕ) (U := UR sig nD τ) (Lvl := ℕ) spec0 c W := by
  rw [arrBufs_chain, arrays_chain, hG 0, hG 1, hG 2, hG 3, hG 4, hG 5, hG 6]
  iintro ⟨HLL, HLR, HRL, HRR, H4, H5, H6⟩
  ihave HL := (pointsTo_share (PosShare.mem_left_op_right fullShare.left)).2 $$ [HLL HLR]
  · isplitl [HLL]; · iexact HLL
    iexact HLR
  ihave HR := (pointsTo_share (PosShare.mem_left_op_right fullShare.right)).2 $$ [HRL HRR]
  · isplitl [HRL]; · iexact HRL
    iexact HRR
  ihave Ha := (pointsTo_share (PosShare.mem_left_op_right fullShare)).2 $$ [HL HR]
  · isplitl [HL]; · iexact HL
    iexact HR
  isplitl [Ha]; · iexact Ha
  isplitl [H4]; · iexact H4
  isplitl [H5]; · iexact H5
  iexact H6

end Cert.KernelIdeal.Frame

end
-- ==== Proof.RunIdeal.lean ====
/-
  The run of @main: the host lines before the kernel region, the region, the host line after it.

  Between two of these the core holds every unscoped buffer whole at a known valuation: the launch contents `W0`;
  after the two host lines (the weights rounded, the bias laid as a row) `W1`, which is what the region finds; after
  the region `W2`, which is `W1` but for the output array, at what the write-backs of every grid point left; after the
  last host line (the output re-laid as [65536, 256]) `W3`. The region takes the buffers behind its windows' arrays out
  of that state, deals the activations among the four blades' windows, and puts everything back at its exit. The run
  ends with every unscoped buffer read against the final memory at `W3`.
-/
import proofs.«132976_j89300960018587_2_alg».proof.Proof.SharesIdeal
import proofs.«132976_j89300960018587_2_alg».proof.Proof.LibRegionShared
import Idealize.ShloMosaic.Lib.Pipeline.RegionsLoop
import Idealize.ShloMosaic.Lib.Pipeline.FrameSuffix

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the two host lines before the region: what the region finds. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the region's exit: the output array at what the write-backs left, every other buffer as the region found it. -/
def W2 (c : Dev nD) : Valuation τ sig (Elt F) :=
  Function.update (W1 m ρ c) main_v2 ((dat (V1 m ρ) c).arrAt 6 cfg0.N)
/-- After the host line that follows the region. -/
abbrev W3 : Dev nD → Valuation τ sig (Elt F) := fun c => StableHlo.after hostOps1 (W2 m ρ c)

theorem W2_out (c : Dev nD) : W2 m ρ c main_v2 = (dat (V1 m ρ) c).arrAt 6 cfg0.N := by
  unfold W2; exact Function.update_self ..
theorem W2_of_ne (c : Dev nD) (b : Ref sig .tc) (hb : b ≠ main_v2) : W2 m ρ c b = W1 m ρ c b := by
  unfold W2; exact Function.update_of_ne (StableHlo.devRef_ne_of_ne hb) ..

/-- At the region's exit each window's array holds what the pipeline leaves: an input's array what the region found,
    the output array its write-backs. -/
theorem exit_arrays (c : Dev nD) (w : Fin cfg0.W) :
    (dat (V1 m ρ) c).arrAt w cfg0.N = (fun b : Ref sig .tc => W2 m ρ c b) (Pipeline.arrRef spec0 w) :=
  match w with
  | ⟨0, _⟩ => (((dat (V1 m ρ) c).arrAt_in 0 rfl _).trans (A_eq (V1 m ρ) c 0)).trans (W2_of_ne m ρ c main_arg0 (by decide)).symm
  | ⟨1, _⟩ => (((dat (V1 m ρ) c).arrAt_in 1 rfl _).trans (A_eq (V1 m ρ) c 1)).trans (W2_of_ne m ρ c main_arg0 (by decide)).symm
  | ⟨2, _⟩ => (((dat (V1 m ρ) c).arrAt_in 2 rfl _).trans (A_eq (V1 m ρ) c 2)).trans (W2_of_ne m ρ c main_arg0 (by decide)).symm
  | ⟨3, _⟩ => (((dat (V1 m ρ) c).arrAt_in 3 rfl _).trans (A_eq (V1 m ρ) c 3)).trans (W2_of_ne m ρ c main_arg0 (by decide)).symm
  | ⟨4, _⟩ => (((dat (V1 m ρ) c).arrAt_in 4 rfl _).trans (A_eq (V1 m ρ) c 4)).trans (W2_of_ne m ρ c main_v0 (by decide)).symm
  | ⟨5, _⟩ => (((dat (V1 m ρ) c).arrAt_in 5 rfl _).trans (A_eq (V1 m ρ) c 5)).trans (W2_of_ne m ρ c main_v1 (by decide)).symm
  | ⟨6, _⟩ => (W2_out m ρ c).symm

/-- A buffer that is no window's array is as the region found it. -/
theorem exit_rest (c : Dev nD) (b : Ref sig .tc) (hb : b ∉ Finset.univ.image (Pipeline.arrRef spec0)) : W2 m ρ c b = W1 m ρ c b :=
  W2_of_ne m ρ c b fun e => hb (Finset.mem_image.mpr ⟨6, Finset.mem_univ _, e.symm⟩)

/-! ## The proof data family and the thread state -/

abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat (V1 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A stretch of host lines as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W3 m ρ c) ∗ ∃ r, prngReg c r)

/-! ## The region as a segment -/

set_option backward.isDefEq.respectTransparency.types false in
/-- The kernel region: entered from every unscoped buffer at `W1`, left at `W2`. -/
def reg0 : Pipeline.RegionSeg (pcfgs (F := F)) adm (pdats m ρ) () defs₀ 𝒱₀ L lv 0 :=
  Cert.LibRegionShared.region (pcfgs (F := F)) adm (pdats m ρ) () defs₀ 𝒱₀ L lv 0
    winFacts₀0 block_pos0 stage_whole0
    (fun c => (body_obligation (V1 m ρ) c).loose) (fun _ _ => rfl) (fun _ => rfl)
    (fun c => by unfold Pipeline.prefHeld; rw [show (Finset.univ : Finset (Fin 0)) = ∅ from rfl, BI.bigSep_empty])
    (W1 m ρ) (W2 m ρ) (fun c => iprop(∃ r, prngReg c r)) (fun c => iprop(∃ r, prngReg c r))
    (fun c => deal (V1 m ρ) c (fun b => W1 m ρ c b) _ (fun w => A_eq (V1 m ρ) c w))
    (fun c => collect (V1 m ρ) c (fun b => W2 m ρ c b) _ (exit_arrays m ρ c))
    (fun c b hb => exit_rest m ρ c b hb)
    (fun c => by
      rw [show (pdats m ρ 0 c).Φ 0 = Pipeline.ΦA spec0 c from rfl]; unfold Pipeline.ΦA
      iintro ⟨Hp, Hr⟩
      isplitl [Hr]; · iexact Hr
      iexact Hp)
    (fun c => by
      rw [show (pdats m ρ 0 c).Φ (Fin.last _) = Pipeline.ΦA spec0 c from rfl]; unfold Pipeline.ΦA
      iintro ⟨Hr, Hp⟩
      isplitl [Hp]; · iexact Hp
      iexact Hr)

/-! ## @main as its segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and every
    final memory holds every unscoped buffer at `W3`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (W3 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Frame

end
-- ==== Proof.RunReadIdeal.lean ====
/-
  The run of @main read at the buffers the claims speak of.

  No host line writes an argument and the region only reads the activations, so each argument's buffer ends as
  launched; the result is the host's last line — the [4, 16384, 256] output array re-laid as [65536, 256] — of what the
  region's write-backs left in the output array.
-/
import proofs.«132976_j89300960018587_2_alg».proof.Proof.RunIdeal

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- No host line and no write-back touches argument 0: it ends as launched. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl
/-- No host line and no write-back touches argument 1: it ends as launched. -/
theorem W3_arg1 (c : Dev nD) : W3 m ρ c (Proc.devRef .tc main_arg1) = m ((c : Thread nD τ).loc main_arg1) :=
  calc W3 m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
/-- No host line and no write-back touches argument 2: it ends as launched. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The result: the output array, as the write-backs left it, re-laid as [65536, 256]. -/
theorem W3_out (c : Dev nD) : W3 m ρ c (Proc.devRef .tc main_v3)
    = shapeCast S65536x256 ((dat (V1 m ρ) c).arrAt 6 cfg0.N) Facts₀.shapeCasts_S4x16384x256_S65536x256 := by
  show StableHlo.after hostOps1 (W2 m ρ c) (Proc.devRef .tc main_v3) = _
  after_results
  rw [show W2 m ρ c (Proc.devRef .tc main_v2) = (dat (V1 m ρ) c).arrAt 6 cfg0.N from W2_out m ρ c]
  try rfl

/-- What the region finds in the three arrays its windows look at: the activations as launched, the weights rounded
    (the host's first line), the bias laid as a row (its second). -/
theorem V1_x (c : Dev nD) : V1 m ρ c main_arg0 = m ((c : Thread nD τ).loc main_arg0) :=
  (StableHlo.after_of_forall_not_mem (b := Proc.devRef .tc main_arg0) _ _ (List.forall_iff_forall_mem.mp (by
          simp only [hostOps0, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans rfl
theorem V1_w (c : Dev nD) : V1 m ρ c main_v0 = truncf .bf16 (m ((c : Thread nD τ).loc main_arg1)) Facts₀.bitsLt_bf16_f32 := by
  show StableHlo.after hostOps0 (W0 m ρ c) (Proc.devRef .tc main_v0) = _
  after_results <;> rfl
theorem V1_b (c : Dev nD) : V1 m ρ c main_v1 = shapeCast S1x1024 (m ((c : Thread nD τ).loc main_arg2)) Facts₀.shapeCasts_S1024_S1x1024 := by
  show StableHlo.after hostOps0 (W0 m ρ c) (Proc.devRef .tc main_v1) = _
  after_results <;> rfl

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W3_arg0 m ρ c),
     (h c _ (mem_uc main_arg1 (by decide))).trans (W3_arg1 m ρ c),
     (h c _ (mem_uc main_arg2 (by decide))).trans (W3_arg2 m ρ c)⟩) (run_main m ρ)

/-- The run with the result named: the re-laid output array, and the arguments as launched. -/
theorem run_out : θ_run defs (onTc (τ := τ) (main (F := F))) ⟨m, fun _ => 0, ρ⟩ (fun r => ∀ c : Dev nD,
      r.2.mem ((c.tc : Thread nD τ).loc main_v3)
        = shapeCast S65536x256 ((dat (V1 m ρ) c).arrAt 6 cfg0.N) Facts₀.shapeCasts_S4x16384x256_S65536x256
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v3 (by decide))).trans (W3_out m ρ c),
     (h c _ (mem_uc main_arg0 (by decide))).trans (W3_arg0 m ρ c),
     (h c _ (mem_uc main_arg1 (by decide))).trans (W3_arg1 m ρ c),
     (h c _ (mem_uc main_arg2 (by decide))).trans (W3_arg2 m ρ c)⟩) (run_main m ρ)

end Cert.KernelIdeal.Frame

end
-- ==== Proof.Spec.lean ====
/-
  The function both programs compute, entry by entry, on the extended reals.

  The activations `x` hold four blade chunks of 16384 rows each (row `i * 16384 + r` is row `r` of blade `i`), the
  weights `W` four column groups of 256 units each (column `j * 256 + u` is unit `u` of weight blade `j`). Every
  blade chunk goes through the same dense layer, `x W`; the bias `b` is added to blade 0's chunk only. Output blade
  `k` is the signed sum, over the input blades `i = 0, 1, 2, 3` in this order, of the one weight group `j` with
  `e_i e_j = ± e_k` in the quaternion multiplication table, the sign being that of the product. A term with sign
  `-` is the negation of the (already biased) layer output, never a negated sum taken apart, so that no law of the
  extended reals beyond the shape of the sum is used. The result's row `k * 16384 + r` is row `r` of output blade `k`.
-/
import Idealize.ShloMosaic.PureOps.Ideal
import Idealize.ShloMosaic.Lib.ValueIdx

noncomputable section

open scoped BigOperators

namespace Cert.Spec

open Idealize.ShloMosaic Idealize.ShloMosaic.ValueIdx

/-- Entry `(row, col)` of the product `x W`: the sum over the 256 input features. -/
def prod (x : (⟨2, ![65536, 256]⟩ : Shape).Idx → EReal) (W : (⟨2, ![256, 1024]⟩ : Shape).Idx → EReal)
    (row : Fin 65536) (col : Fin 1024) : EReal :=
  ∑ c : Fin 256, x (ix2 row c) * W (ix2 c col)

/-- Row `r` of blade `i` among the 65536 rows of the activations. -/
def rowOf (i : Fin 4) (r : Fin 16384) : Fin 65536 := ⟨i.val * 16384 + r.val, by have := i.isLt; have := r.isLt; omega⟩

/-- Unit `u` of weight blade `j` among the 1024 columns of the weights. -/
def colOf (j : Fin 4) (u : Fin 256) : Fin 1024 := ⟨j.val * 256 + u.val, by have := j.isLt; have := u.isLt; omega⟩

/-- The dense layer on row `r` of blade `i`, column `col`: the bias is added to blade 0's chunk only. -/
def layer (x : (⟨2, ![65536, 256]⟩ : Shape).Idx → EReal) (W : (⟨2, ![256, 1024]⟩ : Shape).Idx → EReal)
    (b : (⟨1, ![1024]⟩ : Shape).Idx → EReal) (i : Fin 4) (r : Fin 16384) (col : Fin 1024) : EReal :=
  if i.val = 0 then prod x W (rowOf i r) col + b (ix1 col) else prod x W (rowOf i r) col

/-- The quaternion table's signed sum: from the four blades' layer outputs `L i col` (one row of each), output blade
    `k` at unit `u` — over the input blades `i = 0, 1, 2, 3` in this order, each at the one weight group it meets `k` in. -/
def combine (L : Fin 4 → Fin 1024 → EReal) (k : Fin 4) (u : Fin 256) : EReal :=
  match k with
  | ⟨0, _⟩ => L 0 (colOf 0 u) + -(L 1 (colOf 1 u)) + -(L 2 (colOf 2 u)) + -(L 3 (colOf 3 u))
  | ⟨1, _⟩ => L 0 (colOf 1 u) + L 1 (colOf 0 u) + L 2 (colOf 3 u) + -(L 3 (colOf 2 u))
  | ⟨2, _⟩ => L 0 (colOf 2 u) + -(L 1 (colOf 3 u)) + L 2 (colOf 0 u) + L 3 (colOf 1 u)
  | ⟨3, _⟩ => L 0 (colOf 3 u) + L 1 (colOf 2 u) + -(L 2 (colOf 1 u)) + L 3 (colOf 0 u)

/-- Output blade `k` at row `r`, unit `u`. -/
def blade (x : (⟨2, ![65536, 256]⟩ : Shape).Idx → EReal) (W : (⟨2, ![256, 1024]⟩ : Shape).Idx → EReal)
    (b : (⟨1, ![1024]⟩ : Shape).Idx → EReal) (k : Fin 4) (r : Fin 16384) (u : Fin 256) : EReal :=
  combine (fun i col => layer x W b i r col) k u

/-- One of four things by a blade number. -/
def pick {α : Type} (a0 a1 a2 a3 : α) (i : Fin 4) : α :=
  match i with | ⟨0, _⟩ => a0 | ⟨1, _⟩ => a1 | ⟨2, _⟩ => a2 | ⟨3, _⟩ => a3

@[simp] theorem pick_zero {α : Type} (a0 a1 a2 a3 : α) : pick a0 a1 a2 a3 0 = a0 := rfl
@[simp] theorem pick_one {α : Type} (a0 a1 a2 a3 : α) : pick a0 a1 a2 a3 1 = a1 := rfl
@[simp] theorem pick_two {α : Type} (a0 a1 a2 a3 : α) : pick a0 a1 a2 a3 2 = a2 := rfl
@[simp] theorem pick_three {α : Type} (a0 a1 a2 a3 : α) : pick a0 a1 a2 a3 3 = a3 := rfl

/-- The dense layer on ONE tile of 1024 rows: the four blades' row tiles `x0 … x3`, the weights `w`, the bias as a
    row `bv`; row `rr` of blade `i`'s tile, column `col`. -/
def tileLayer (x0 x1 x2 x3 : (⟨2, ![1024, 256]⟩ : Shape).Idx → EReal) (w : (⟨2, ![256, 1024]⟩ : Shape).Idx → EReal)
    (bv : (⟨2, ![1, 1024]⟩ : Shape).Idx → EReal) (rr : Fin 1024) (i : Fin 4) (col : Fin 1024) : EReal :=
  if i.val = 0 then (∑ c : Fin 256, pick x0 x1 x2 x3 i (ix2 rr c) * w (ix2 c col)) + bv (ix2 (0 : Fin 1) col)
  else ∑ c : Fin 256, pick x0 x1 x2 x3 i (ix2 rr c) * w (ix2 c col)

/-- The whole result: row `k * 16384 + r` is row `r` of output blade `k`. -/
def out (x : (⟨2, ![65536, 256]⟩ : Shape).Idx → EReal) (W : (⟨2, ![256, 1024]⟩ : Shape).Idx → EReal)
    (b : (⟨1, ![1024]⟩ : Shape).Idx → EReal) : (⟨2, ![65536, 256]⟩ : Shape).Idx → EReal := fun i =>
  blade x W b ⟨(i 0).val / 16384, Nat.div_lt_of_lt_mul (show (i 0).val < 16384 * 4 from (i 0).isLt)⟩
    ⟨(i 0).val % 16384, Nat.mod_lt _ (by decide)⟩ ⟨(i 1).val, (i 1).isLt⟩

/-- The result at the row of blade `k`, row `r`. -/
theorem out_apply (x : (⟨2, ![65536, 256]⟩ : Shape).Idx → EReal) (W : (⟨2, ![256, 1024]⟩ : Shape).Idx → EReal)
    (b : (⟨1, ![1024]⟩ : Shape).Idx → EReal) (k : Fin 4) (r : Fin 16384) (u : Fin 256) :
    out x W b (ix2 (rowOf k r) u) = blade x W b k r u := by
  have hk := k.isLt; have hr := r.isLt
  unfold out
  congr 1
  · apply Fin.ext; show (k.val * 16384 + r.val) / 16384 = k.val; omega
  · apply Fin.ext; show (k.val * 16384 + r.val) % 16384 = r.val; omega

end Cert.Spec

end
-- ==== Proof.BlocksIdeal.lean ====
/-
  The windows' blocks at a grid point, entry by entry, and the dense layer over them.

  At grid point `t` blade `i`'s window shows rows `(i * 16 + t) * 1024 … + 1023` of the activations, that is rows
  `t * 1024 …` of blade `i`'s chunk; the weights' and the bias row's windows show those arrays whole, the weights as
  the host rounded them (no change on the extended reals) and the bias as the host laid it in a row. So the dense layer
  computed on the six blocks, at row `rr` of the tile, is the dense layer of the whole arrays at row `t * 1024 + rr`
  of each blade's chunk.
-/
import proofs.«132976_j89300960018587_2_alg».proof.Proof.RunReadIdeal
import proofs.«132976_j89300960018587_2_alg».proof.Proof.Spec
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Blocks

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The printed index maps over the sixteen grid points: blade `i`'s window is at block row `i * 16 + t`, the weights
    and the bias row stay put, the output tile is at block row `t` of every blade. -/
theorem idx_facts : ∀ t : Fin cfg0.N,
    win0_0.index t (0 : Fin 2) = t.val ∧ win0_0.index t (1 : Fin 2) = 0
    ∧ win0_1.index t (0 : Fin 2) = 16 + t.val ∧ win0_1.index t (1 : Fin 2) = 0
    ∧ win0_2.index t (0 : Fin 2) = 32 + t.val ∧ win0_2.index t (1 : Fin 2) = 0
    ∧ win0_3.index t (0 : Fin 2) = 48 + t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = t.val ∧ win0_6.index t (2 : Fin 3) = 0 :=
  (by decide +kernel : ∀ t : Fin grid0.N, _)

theorem t_lt (t : Fin cfg0.N) : t.val < 16 := lt_of_lt_of_eq t.isLt N_0

/-- Row `rr` of the tile at grid point `t`, as a row of a blade's chunk. -/
def rowAt (t : Fin cfg0.N) (rr : Fin 1024) : Fin 16384 := ⟨t.val * 1024 + rr.val, by have := t_lt t; have := rr.isLt; omega⟩

/-! ## The four blades' row tiles -/

theorem blk0_apply (c : Dev nD) (t : Fin cfg0.N) (rr : Fin 1024) (cc : Fin 256) :
    iblk (V1 m ρ) c 0 t (ix2 rr cc) = m ((c : Thread nD τ).loc main_arg0) (ix2 (Cert.Spec.rowOf 0 (rowAt t rr)) cc) := by
  obtain ⟨e0, e1, -⟩ := idx_facts t
  show V1 m ρ c main_arg0 (((cfg0.win 0).blk t).view.emb (ix2 rr cc)) = _
  rw [V1_x]
  refine congrArg _ (funext fun a => Fin.ext ?_)
  match a with
  | ⟨0, _⟩ => show win0_0.index t (0 : Fin 2) * 1024 + 1 * rr.val = 0 * 16384 + (t.val * 1024 + rr.val); omega
  | ⟨1, _⟩ => show win0_0.index t (1 : Fin 2) * 256 + 1 * cc.val = cc.val; omega

theorem blk1_apply (c : Dev nD) (t : Fin cfg0.N) (rr : Fin 1024) (cc : Fin 256) :
    iblk (V1 m ρ) c 1 t (ix2 rr cc) = m ((c : Thread nD τ).loc main_arg0) (ix2 (Cert.Spec.rowOf 1 (rowAt t rr)) cc) := by
  obtain ⟨-, -, e0, e1, -⟩ := idx_facts t
  show V1 m ρ c main_arg0 (((cfg0.win 1).blk t).view.emb (ix2 rr cc)) = _
  rw [V1_x]
  refine congrArg _ (funext fun a => Fin.ext ?_)
  match a with
  | ⟨0, _⟩ => show win0_1.index t (0 : Fin 2) * 1024 + 1 * rr.val = 1 * 16384 + (t.val * 1024 + rr.val); omega
  | ⟨1, _⟩ => show win0_1.index t (1 : Fin 2) * 256 + 1 * cc.val = cc.val; omega

theorem blk2_apply (c : Dev nD) (t : Fin cfg0.N) (rr : Fin 1024) (cc : Fin 256) :
    iblk (V1 m ρ) c 2 t (ix2 rr cc) = m ((c : Thread nD τ).loc main_arg0) (ix2 (Cert.Spec.rowOf 2 (rowAt t rr)) cc) := by
  obtain ⟨-, -, -, -, e0, e1, -⟩ := idx_facts t
  show V1 m ρ c main_arg0 (((cfg0.win 2).blk t).view.emb (ix2 rr cc)) = _
  rw [V1_x]
  refine congrArg _ (funext fun a => Fin.ext ?_)
  match a with
  | ⟨0, _⟩ => show win0_2.index t (0 : Fin 2) * 1024 + 1 * rr.val = 2 * 16384 + (t.val * 1024 + rr.val); omega
  | ⟨1, _⟩ => show win0_2.index t (1 : Fin 2) * 256 + 1 * cc.val = cc.val; omega

theorem blk3_apply (c : Dev nD) (t : Fin cfg0.N) (rr : Fin 1024) (cc : Fin 256) :
    iblk (V1 m ρ) c 3 t (ix2 rr cc) = m ((c : Thread nD τ).loc main_arg0) (ix2 (Cert.Spec.rowOf 3 (rowAt t rr)) cc) := by
  obtain ⟨-, -, -, -, -, -, e0, e1, -⟩ := idx_facts t
  show V1 m ρ c main_arg0 (((cfg0.win 3).blk t).view.emb (ix2 rr cc)) = _
  rw [V1_x]
  refine congrArg _ (funext fun a => Fin.ext ?_)
  match a with
  | ⟨0, _⟩ => show win0_3.index t (0 : Fin 2) * 1024 + 1 * rr.val = 3 * 16384 + (t.val * 1024 + rr.val); omega
  | ⟨1, _⟩ => show win0_3.index t (1 : Fin 2) * 256 + 1 * cc.val = cc.val; omega

/-! ## The weights and the bias row -/

/-- The weights' block is the whole array of weights: rounding changes nothing on the extended reals. -/
theorem blk4_apply (c : Dev nD) (t : Fin cfg0.N) (cc : Fin 256) (col : Fin 1024) :
    iblk (V1 m ρ) c 4 t (ix2 cc col) = m ((c : Thread nD τ).loc main_arg1) (ix2 cc col) := by
  obtain ⟨-, -, -, -, -, -, -, -, e0, e1, -⟩ := idx_facts t
  show V1 m ρ c main_v0 (((cfg0.win 4).blk t).view.emb (ix2 cc col)) = _
  rw [V1_w]
  show m ((c : Thread nD τ).loc main_arg1) (((cfg0.win 4).blk t).view.emb (ix2 cc col)) = _
  refine congrArg _ (funext fun a => Fin.ext ?_)
  match a with
  | ⟨0, _⟩ => show win0_4.index t (0 : Fin 2) * 256 + 1 * cc.val = cc.val; omega
  | ⟨1, _⟩ => show win0_4.index t (1 : Fin 2) * 1024 + 1 * col.val = col.val; omega

/-- The bias row's block is the bias, laid in a row. -/
theorem blk5_apply (c : Dev nD) (t : Fin cfg0.N) (col : Fin 1024) :
    iblk (V1 m ρ) c 5 t (ix2 (0 : Fin 1) col) = m ((c : Thread nD τ).loc main_arg2) (ix1 col) := by
  obtain ⟨-, -, -, -, -, -, -, -, -, -, e0, e1, -⟩ := idx_facts t
  show V1 m ρ c main_v1 (((cfg0.win 5).blk t).view.emb (ix2 (0 : Fin 1) col)) = _
  rw [V1_b]
  have he : ((cfg0.win 5).blk t).view.emb (ix2 (0 : Fin 1) col) = ix2 (0 : Fin 1) col := by
    funext a; apply Fin.ext
    match a with
    | ⟨0, _⟩ => show win0_5.index t (0 : Fin 2) * 1 + 1 * 0 = 0; omega
    | ⟨1, _⟩ => show win0_5.index t (1 : Fin 2) * 1024 + 1 * col.val = col.val; omega
  rw [he]
  exact shapeCast_a_1a_apply _ _ (0 : Fin 1) col

/-! ## The dense layer over the blocks -/

/-- The dense layer computed on the six blocks at grid point `t`, row `rr` of the tile, is the dense layer of the
    whole arrays at row `t * 1024 + rr` of each blade's chunk. -/
theorem tileLayer_blocks (c : Dev nD) (t : Fin cfg0.N) (rr : Fin 1024) :
    Cert.Spec.tileLayer (iblk (V1 m ρ) c 0 t) (iblk (V1 m ρ) c 1 t) (iblk (V1 m ρ) c 2 t) (iblk (V1 m ρ) c 3 t)
        (iblk (V1 m ρ) c 4 t) (iblk (V1 m ρ) c 5 t) rr
      = fun i col => Cert.Spec.layer (m ((c : Thread nD τ).loc main_arg0)) (m ((c : Thread nD τ).loc main_arg1))
          (m ((c : Thread nD τ).loc main_arg2)) i (rowAt t rr) col := by
  funext i col
  have hsum : (∑ cc : Fin 256, Cert.Spec.pick (α := (⟨2, ![1024, 256]⟩ : Shape).Idx → EReal)
          (iblk (V1 m ρ) c 0 t) (iblk (V1 m ρ) c 1 t) (iblk (V1 m ρ) c 2 t) (iblk (V1 m ρ) c 3 t) i (ix2 rr cc)
        * (iblk (V1 m ρ) c 4 t : (⟨2, ![256, 1024]⟩ : Shape).Idx → EReal) (ix2 cc col))
      = Cert.Spec.prod (m ((c : Thread nD τ).loc main_arg0)) (m ((c : Thread nD τ).loc main_arg1)) (Cert.Spec.rowOf i (rowAt t rr)) col := by
    unfold Cert.Spec.prod
    refine Finset.sum_congr rfl fun cc _ => ?_
    rw [blk4_apply]
    refine congrArg (· * _) ?_
    match i with
    | ⟨0, _⟩ => exact blk0_apply m ρ c t rr cc
    | ⟨1, _⟩ => exact blk1_apply m ρ c t rr cc
    | ⟨2, _⟩ => exact blk2_apply m ρ c t rr cc
    | ⟨3, _⟩ => exact blk3_apply m ρ c t rr cc
  unfold Cert.Spec.tileLayer Cert.Spec.layer
  rw [hsum, blk5_apply]

end Cert.KernelIdeal.Blocks

end
-- ==== Proof.TileCanon.lean ====
/-
  Four slabs written into the [4, 1024, 256] output tile read back as the four payloads.

  Slab k is the unit-stride rectangle at offset (k, 0, 0) of size (1, 1024, 256). The entry (k, rr, u) of the buffer
  lies in slab k alone, at the slab's own index (0, rr, u): the first coordinate of a slab's entry is its offset plus
  a coordinate below 1. So after the four stores (whatever their order) the buffer at (k, rr, u) holds payload k at
  (0, rr, u).
-/
import proofs.«132976_j89300960018587_2_alg».proof.Proof.BodyOutIdeal
import proofs.«132976_j89300960018587_2_alg».proof.Proof.Spec
import Idealize.ShloMosaic.Lib.Pipeline.Value
import Idealize.ShloMosaic.Lib.ValueIdx

set_option maxRecDepth 16384

noncomputable section

open scoped BigOperators

namespace Cert.KernelIdeal.TileValue

open Cert.KernelIdeal Cert.KernelIdeal.Gen
open Idealize.ShloMosaic Idealize.ShloMosaic.ValueIdx Idealize.SL.Sem

variable [Facts]

/-- The slab at offset (o, 0, 0) places its entry (0, rr, u) at (o, rr, u). -/
theorem slab_emb (o : Nat) (inb : ∀ a, (![o, 0, 0] : Fin S4x1024x256.rank → Nat) a + S1x1024x256.size a ≤ S4x1024x256.size a)
    (k : Fin 4) (hk : k.val = o) (rr : Fin 1024) (u : Fin 256) :
    (Rect.unit (s := S4x1024x256) ![o, 0, 0] S1x1024x256.size inb).emb (ix3 (0 : Fin 1) rr u) = ix3 k rr u := by
  funext a
  apply Fin.ext
  match a with
  | ⟨0, _⟩ => show o + 1 * 0 = k.val; omega
  | ⟨1, _⟩ => show 0 + 1 * rr.val = rr.val; omega
  | ⟨2, _⟩ => show 0 + 1 * u.val = u.val; omega

/-- The slab at offset (o, 0, 0) holds no entry whose first coordinate is another. -/
theorem slab_not_mem (o : Nat) (inb : ∀ a, (![o, 0, 0] : Fin S4x1024x256.rank → Nat) a + S1x1024x256.size a ≤ S4x1024x256.size a)
    (k : Fin 4) (hk : k.val ≠ o) (rr : Fin 1024) (u : Fin 256) :
    (ix3 k rr u : S4x1024x256.Idx) ∉ (Rect.unit (s := S4x1024x256) ![o, 0, 0] S1x1024x256.size inb).set := by
  intro h
  have h0 := (Rect.mem_set_unit.mp h) (⟨0, by decide⟩ : Fin S4x1024x256.rank)
  have h1 : o ≤ k.val ∧ k.val < o + 1 := h0
  omega

theorem rO0_emb (k : Fin 4) (hk : k.val = 0) (rr : Fin 1024) (u : Fin 256) : Body.rO0.emb (ix3 (0 : Fin 1) rr u) = ix3 k rr u :=
  slab_emb 0 Facts₀.inb_S4x1024x256_S1x1024x256_0_0_0 k hk rr u
theorem rO1_emb (k : Fin 4) (hk : k.val = 1) (rr : Fin 1024) (u : Fin 256) : Body.rO1.emb (ix3 (0 : Fin 1) rr u) = ix3 k rr u :=
  slab_emb 1 Facts₀.inb_S4x1024x256_S1x1024x256_1_0_0 k hk rr u
theorem rO2_emb (k : Fin 4) (hk : k.val = 2) (rr : Fin 1024) (u : Fin 256) : Body.rO2.emb (ix3 (0 : Fin 1) rr u) = ix3 k rr u :=
  slab_emb 2 Facts₀.inb_S4x1024x256_S1x1024x256_2_0_0 k hk rr u
theorem rO3_emb (k : Fin 4) (hk : k.val = 3) (rr : Fin 1024) (u : Fin 256) : Body.rO3.emb (ix3 (0 : Fin 1) rr u) = ix3 k rr u :=
  slab_emb 3 Facts₀.inb_S4x1024x256_S1x1024x256_3_0_0 k hk rr u

theorem rO1_not_mem (k : Fin 4) (hk : k.val ≠ 1) (rr : Fin 1024) (u : Fin 256) : (ix3 k rr u : S4x1024x256.Idx) ∉ Body.rO1.set :=
  slab_not_mem 1 Facts₀.inb_S4x1024x256_S1x1024x256_1_0_0 k hk rr u
theorem rO2_not_mem (k : Fin 4) (hk : k.val ≠ 2) (rr : Fin 1024) (u : Fin 256) : (ix3 k rr u : S4x1024x256.Idx) ∉ Body.rO2.set :=
  slab_not_mem 2 Facts₀.inb_S4x1024x256_S1x1024x256_2_0_0 k hk rr u
theorem rO3_not_mem (k : Fin 4) (hk : k.val ≠ 3) (rr : Fin 1024) (u : Fin 256) : (ix3 k rr u : S4x1024x256.Idx) ∉ Body.rO3.set :=
  slab_not_mem 3 Facts₀.inb_S4x1024x256_S1x1024x256_3_0_0 k hk rr u

/-- The buffer after the four stores, at entry (k, rr, u): payload k at (0, rr, u). -/
theorem slabs_apply (p3 p2 p1 p0 : Vec Ideal S1x1024x256 .f32) (k : Fin 4) (rr : Fin 1024) (u : Fin 256) :
    View.canon ([⟨Body.rO3, p3⟩, ⟨Body.rO2, p2⟩, ⟨Body.rO1, p1⟩, ⟨Body.rO0, p0⟩] : List (View.Piece (Elt Ideal) S4x1024x256 .f32))
        (ix3 k rr u)
      = Cert.Spec.pick p0 p1 p2 p3 k (ix3 (0 : Fin 1) rr u) := by
  match k with
  | ⟨0, hk⟩ =>
    refine (View.canon_cons_of_not_mem ⟨Body.rO3, p3⟩ _ (rO3_not_mem ⟨0, hk⟩ (by show (0 : ℕ) ≠ 3; decide) rr u)).trans ?_
    refine (View.canon_cons_of_not_mem ⟨Body.rO2, p2⟩ _ (rO2_not_mem ⟨0, hk⟩ (by show (0 : ℕ) ≠ 2; decide) rr u)).trans ?_
    refine (View.canon_cons_of_not_mem ⟨Body.rO1, p1⟩ _ (rO1_not_mem ⟨0, hk⟩ (by show (0 : ℕ) ≠ 1; decide) rr u)).trans ?_
    exact (congrArg _ (rO0_emb ⟨0, hk⟩ rfl rr u).symm).trans (View.canon_cons_emb Body.rO0 p0 [] (ix3 (0 : Fin 1) rr u))
  | ⟨1, hk⟩ =>
    refine (View.canon_cons_of_not_mem ⟨Body.rO3, p3⟩ _ (rO3_not_mem ⟨1, hk⟩ (by show (1 : ℕ) ≠ 3; decide) rr u)).trans ?_
    refine (View.canon_cons_of_not_mem ⟨Body.rO2, p2⟩ _ (rO2_not_mem ⟨1, hk⟩ (by show (1 : ℕ) ≠ 2; decide) rr u)).trans ?_
    exact (congrArg _ (rO1_emb ⟨1, hk⟩ rfl rr u).symm).trans (View.canon_cons_emb Body.rO1 p1 _ (ix3 (0 : Fin 1) rr u))
  | ⟨2, hk⟩ =>
    refine (View.canon_cons_of_not_mem ⟨Body.rO3, p3⟩ _ (rO3_not_mem ⟨2, hk⟩ (by show (2 : ℕ) ≠ 3; decide) rr u)).trans ?_
    exact (congrArg _ (rO2_emb ⟨2, hk⟩ rfl rr u).symm).trans (View.canon_cons_emb Body.rO2 p2 _ (ix3 (0 : Fin 1) rr u))
  | ⟨3, hk⟩ =>
    exact (congrArg _ (rO3_emb ⟨3, hk⟩ rfl rr u).symm).trans (View.canon_cons_emb Body.rO3 p3 _ (ix3 (0 : Fin 1) rr u))

end Cert.KernelIdeal.TileValue

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.TileLayer.lean ====
/-
  The dense layer on one tile of 1024 rows, entry by entry.

  Each blade's row tile [1024, 256] is multiplied by the weights [256, 1024] into a zero accumulator: entry
  (rr, col) of the product is the sum over the 256 input features c of x(rr, c) * w(c, col). Rounding the
  activations to the weights' format changes nothing on the extended reals, and the weights' cast to their own shape
  is the identity. Blade 0's product then gets the bias row added, spread over the 1024 rows: entry (rr, col)
  gains b(0, col).
-/
import proofs.«132976_j89300960018587_2_alg».proof.Proof.Gen.KernelIdeal.Skeleton
import proofs.«132976_j89300960018587_2_alg».proof.Proof.LibMatmulPlain
import Idealize.ShloMosaic.Lib.ValueLayout
import Idealize.ShloMosaic.PureOps.Ideal.Laws

set_option maxRecDepth 16384

noncomputable section

open scoped BigOperators

namespace Cert.KernelIdeal.TileValue

open Cert.KernelIdeal Cert.KernelIdeal.Gen
open Idealize.ShloMosaic Idealize.ShloMosaic.ValueIdx Idealize.SL.Sem

variable [Facts]

/-- The weights cast to their own shape are the weights. -/
theorem weights_eq (v0 : Vec Ideal S256x1024 .bf16) : k0_pay6 (F := Ideal) v0 = v0 :=
  shapeCast_self _ _

/-- One blade's product with the weights at entry (rr, col): the sum over the input features. -/
theorem product_apply (w : FVec Ideal S256x1024 .bf16) (x : Vec Ideal S1024x256 .f32) (rr : Fin 1024) (col : Fin 1024) :
    matmul dot_S1024x256_S256x1024_S1024x1024_1_0_0_1_n_n none (truncf .bf16 x bitsLt_bf16_f32 : FVec Ideal S1024x256 .bf16) w
        (constant (F := Ideal) S1024x1024 .f32 0x00000000#32) (ix2 rr col)
      = ∑ c : Fin 256, x (ix2 rr c) * w (ix2 c col) :=
  Cert.LibMatmulPlain.matmul_zero_apply dot_S1024x256_S256x1024_S1024x1024_1_0_0_1_n_n rfl rfl rfl rfl rfl rfl none _ w rr col

/-- Blade 0's layer output: the product plus the bias row. -/
theorem layer0_apply (v0 : Vec Ideal S256x1024 .bf16) (v2 : Vec Ideal S1x1024 .f32) (v4 : Vec Ideal S1024x256 .f32)
    (rr : Fin 1024) (col : Fin 1024) :
    k0_pay7 (F := Ideal) v0 v2 v4 (ix2 rr col)
      = (∑ c : Fin 256, v4 (ix2 rr c) * v0 (ix2 c col)) + v2 (ix2 (0 : Fin 1) col) := by
  unfold k0_pay7
  rw [weights_eq]
  refine (addf_apply _ _ _).trans ?_
  rw [product_apply v0 v4 rr col, broadcastTo_1b_ab_apply, shapeCast_self]

/-- Blade 1's layer output: the product alone. -/
theorem layer1_apply (v0 : Vec Ideal S256x1024 .bf16) (v13 : Vec Ideal S1024x256 .f32) (rr : Fin 1024) (col : Fin 1024) :
    k0_pay8 (F := Ideal) v0 v13 (ix2 rr col) = ∑ c : Fin 256, v13 (ix2 rr c) * v0 (ix2 c col) := by
  unfold k0_pay8
  rw [weights_eq]
  exact product_apply v0 v13 rr col

/-- Blade 2's layer output: the product alone. -/
theorem layer2_apply (v0 : Vec Ideal S256x1024 .bf16) (v28 : Vec Ideal S1024x256 .f32) (rr : Fin 1024) (col : Fin 1024) :
    k0_pay10 (F := Ideal) v0 v28 (ix2 rr col) = ∑ c : Fin 256, v28 (ix2 rr c) * v0 (ix2 c col) := by
  unfold k0_pay10
  rw [weights_eq]
  exact product_apply v0 v28 rr col

/-- Blade 3's layer output, over the weights as they were cast: the product alone. -/
theorem layer3_apply (w : FVec Ideal S256x1024 .bf16) (v43 : Vec Ideal S1024x256 .f32) (rr : Fin 1024) (col : Fin 1024) :
    k0_pay1 (F := Ideal) w v43 (ix2 rr col) = ∑ c : Fin 256, v43 (ix2 rr c) * w (ix2 c col) := by
  unfold k0_pay1
  exact product_apply w v43 rr col

end Cert.KernelIdeal.TileValue

end
-- ==== Proof.TileBlade.lean ====
/-
  The four stored tiles, entry by entry, as the quaternion table's signed sums.

  Each layer output [1024, 1024] is cut into four column groups of 256 units: the slice at column offset j * 256 reads,
  at (rr, u), the layer output at column j * 256 + u. A stored tile is the left-nested sum of one group of each blade's
  layer output, in the order of the blades 0, 1, 2, 3, a minus sign being the subtraction from a zero constant, which
  on the extended reals is the negation. The tile gets a leading unit axis, which does not move its entries.

    blade 0 = y0[0:256] - y1[256:512] - y2[512:768] - y3[768:]
    blade 1 = y0[256:512] + y1[0:256] + y2[768:] - y3[512:768]
    blade 2 = y0[512:768] - y1[768:] + y2[0:256] + y3[256:512]
    blade 3 = y0[768:] + y1[512:768] - y2[256:512] + y3[0:256]
-/
import proofs.«132976_j89300960018587_2_alg».proof.Proof.BodyOutIdeal
import proofs.«132976_j89300960018587_2_alg».proof.Proof.TileLayer
import proofs.«132976_j89300960018587_2_alg».proof.Proof.Spec

set_option maxRecDepth 16384

noncomputable section

open scoped BigOperators

namespace Cert.KernelIdeal.TileValue

open Cert.KernelIdeal Cert.KernelIdeal.Gen
open Idealize.ShloMosaic Idealize.ShloMosaic.ValueIdx Idealize.SL.Sem

variable [Facts]

/-- The tile's layer on blade 0: the product plus the bias row. -/
theorem tileLayer_zero (x0 x1 x2 x3 : S1024x256.Idx → EReal) (w : S256x1024.Idx → EReal) (bv : S1x1024.Idx → EReal)
    (rr : Fin 1024) (col : Fin 1024) :
    Cert.Spec.tileLayer x0 x1 x2 x3 w bv rr 0 col
      = (∑ c : Fin 256, x0 (ix2 rr c) * w (ix2 c col)) + bv (ix2 (0 : Fin 1) col) := by
  unfold Cert.Spec.tileLayer
  exact if_pos rfl

/-- The tile's layer on blades 1, 2, 3: the product alone. -/
theorem tileLayer_one (x0 x1 x2 x3 : S1024x256.Idx → EReal) (w : S256x1024.Idx → EReal) (bv : S1x1024.Idx → EReal)
    (rr : Fin 1024) (col : Fin 1024) :
    Cert.Spec.tileLayer x0 x1 x2 x3 w bv rr 1 col = ∑ c : Fin 256, x1 (ix2 rr c) * w (ix2 c col) := by
  unfold Cert.Spec.tileLayer
  exact if_neg (by decide)

theorem tileLayer_two (x0 x1 x2 x3 : S1024x256.Idx → EReal) (w : S256x1024.Idx → EReal) (bv : S1x1024.Idx → EReal)
    (rr : Fin 1024) (col : Fin 1024) :
    Cert.Spec.tileLayer x0 x1 x2 x3 w bv rr 2 col = ∑ c : Fin 256, x2 (ix2 rr c) * w (ix2 c col) := by
  unfold Cert.Spec.tileLayer
  exact if_neg (by decide)

theorem tileLayer_three (x0 x1 x2 x3 : S1024x256.Idx → EReal) (w : S256x1024.Idx → EReal) (bv : S1x1024.Idx → EReal)
    (rr : Fin 1024) (col : Fin 1024) :
    Cert.Spec.tileLayer x0 x1 x2 x3 w bv rr 3 col = ∑ c : Fin 256, x3 (ix2 rr c) * w (ix2 c col) := by
  unfold Cert.Spec.tileLayer
  exact if_neg (by decide)

/-- The column group j of a layer output: the slice at column offset j * 256 reads column j * 256 + u. -/
theorem group_apply (o : Nat) (X : FVec Ideal S1024x1024 .f32) (h : S1024x1024.Slices ![0, o] S1024x256) (j : Fin 4)
    (ho : o = j.val * 256) (rr : Fin 1024) (u : Fin 256) :
    extractStridedSlice S1024x256 ![0, o] X h (ix2 rr u) = X (ix2 rr (Cert.Spec.colOf j u)) :=
  slice2_axis1_apply o X h rr u (Cert.Spec.colOf j u) (by subst ho; rfl)

/-- A minus sign: the subtraction from the zero constant is the negation. -/
theorem minus_apply (X : FVec Ideal S1024x256 .f32) (j : S1024x256.Idx) :
    subf (broadcast S1024x256 (Scalar.ofBits (F := Ideal) .f32 0x00000000#32)) X j = -(X j) := by
  refine (subf_apply _ _ _).trans ?_
  rw [broadcast_apply]
  show Ideal.ofBits .f32 0x00000000#32 - X j = -(X j)
  rw [Ideal.ofBits_zero_f32, sub_eq_add_neg, zero_add]

variable (v0 : Vec Ideal S256x1024 .bf16) (v2 : Vec Ideal S1x1024 .f32) (v4 v13 v28 v43 : Vec Ideal S1024x256 .f32)
  (rr : Fin 1024) (u : Fin 256)

/-- Output blade 0's tile. -/
theorem tile0_apply :
    Body.tile0 (F := Ideal) v0 v2 v4 v13 v28 v43 (ix3 (0 : Fin 1) rr u)
      = Cert.Spec.combine (Cert.Spec.tileLayer v4 v13 v28 v43 v0 v2 rr) 0 u := by
  unfold Body.tile0 k0_pay2 k0_pay11
  rw [weights_eq]
  refine (shapeCast_ab_1ab_apply _ _ _ _ _).trans ?_
  simp only [addf_apply, minus_apply]
  rw [group_apply 0 _ _ 0 rfl rr u, group_apply 256 _ _ 1 rfl rr u, group_apply 512 _ _ 2 rfl rr u,
    group_apply 768 _ _ 3 rfl rr u, layer0_apply, layer1_apply, layer2_apply, layer3_apply]
  show _ = Cert.Spec.tileLayer v4 v13 v28 v43 v0 v2 rr 0 (Cert.Spec.colOf 0 u)
      + -(Cert.Spec.tileLayer v4 v13 v28 v43 v0 v2 rr 1 (Cert.Spec.colOf 1 u))
      + -(Cert.Spec.tileLayer v4 v13 v28 v43 v0 v2 rr 2 (Cert.Spec.colOf 2 u))
      + -(Cert.Spec.tileLayer v4 v13 v28 v43 v0 v2 rr 3 (Cert.Spec.colOf 3 u))
  rw [tileLayer_zero, tileLayer_one, tileLayer_two, tileLayer_three]

/-- Output blade 1's tile. -/
theorem tile1_apply :
    Body.tile1 (F := Ideal) v0 v2 v4 v13 v28 v43 (ix3 (0 : Fin 1) rr u)
      = Cert.Spec.combine (Cert.Spec.tileLayer v4 v13 v28 v43 v0 v2 rr) 1 u := by
  unfold Body.tile1 k0_pay3 k0_pay12
  rw [weights_eq]
  refine (shapeCast_ab_1ab_apply _ _ _ _ _).trans ?_
  simp only [addf_apply, minus_apply]
  rw [group_apply 256 _ _ 1 rfl rr u, group_apply 0 _ _ 0 rfl rr u, group_apply 768 _ _ 3 rfl rr u,
    group_apply 512 _ _ 2 rfl rr u, layer0_apply, layer1_apply, layer2_apply, layer3_apply]
  show _ = Cert.Spec.tileLayer v4 v13 v28 v43 v0 v2 rr 0 (Cert.Spec.colOf 1 u)
      + Cert.Spec.tileLayer v4 v13 v28 v43 v0 v2 rr 1 (Cert.Spec.colOf 0 u)
      + Cert.Spec.tileLayer v4 v13 v28 v43 v0 v2 rr 2 (Cert.Spec.colOf 3 u)
      + -(Cert.Spec.tileLayer v4 v13 v28 v43 v0 v2 rr 3 (Cert.Spec.colOf 2 u))
  rw [tileLayer_zero, tileLayer_one, tileLayer_two, tileLayer_three]

/-- Output blade 2's tile. -/
theorem tile2_apply :
    Body.tile2 (F := Ideal) v0 v2 v4 v13 v28 v43 (ix3 (0 : Fin 1) rr u)
      = Cert.Spec.combine (Cert.Spec.tileLayer v4 v13 v28 v43 v0 v2 rr) 2 u := by
  unfold Body.tile2 k0_pay4 k0_pay13
  rw [weights_eq]
  refine (shapeCast_ab_1ab_apply _ _ _ _ _).trans ?_
  simp only [addf_apply, minus_apply]
  rw [group_apply 512 _ _ 2 rfl rr u, group_apply 768 _ _ 3 rfl rr u, group_apply 0 _ _ 0 rfl rr u,
    group_apply 256 _ _ 1 rfl rr u, layer0_apply, layer1_apply, layer2_apply, layer3_apply]
  show _ = Cert.Spec.tileLayer v4 v13 v28 v43 v0 v2 rr 0 (Cert.Spec.colOf 2 u)
      + -(Cert.Spec.tileLayer v4 v13 v28 v43 v0 v2 rr 1 (Cert.Spec.colOf 3 u))
      + Cert.Spec.tileLayer v4 v13 v28 v43 v0 v2 rr 2 (Cert.Spec.colOf 0 u)
      + Cert.Spec.tileLayer v4 v13 v28 v43 v0 v2 rr 3 (Cert.Spec.colOf 1 u)
  rw [tileLayer_zero, tileLayer_one, tileLayer_two, tileLayer_three]

/-- Output blade 3's tile. -/
theorem tile3_apply :
    Body.tile3 (F := Ideal) v0 v2 v4 v13 v28 v43 (ix3 (0 : Fin 1) rr u)
      = Cert.Spec.combine (Cert.Spec.tileLayer v4 v13 v28 v43 v0 v2 rr) 3 u := by
  unfold Body.tile3 k0_pay5 k0_pay9 k0_pay14
  rw [weights_eq]
  refine (shapeCast_ab_1ab_apply _ _ _ _ _).trans ?_
  simp only [addf_apply, minus_apply]
  rw [group_apply 768 _ _ 3 rfl rr u, group_apply 512 _ _ 2 rfl rr u, group_apply 256 _ _ 1 rfl rr u,
    group_apply 0 _ _ 0 rfl rr u, layer0_apply, layer1_apply, layer2_apply, layer3_apply]
  show _ = Cert.Spec.tileLayer v4 v13 v28 v43 v0 v2 rr 0 (Cert.Spec.colOf 3 u)
      + Cert.Spec.tileLayer v4 v13 v28 v43 v0 v2 rr 1 (Cert.Spec.colOf 2 u)
      + -(Cert.Spec.tileLayer v4 v13 v28 v43 v0 v2 rr 2 (Cert.Spec.colOf 1 u))
      + Cert.Spec.tileLayer v4 v13 v28 v43 v0 v2 rr 3 (Cert.Spec.colOf 0 u)
  rw [tileLayer_zero, tileLayer_one, tileLayer_two, tileLayer_three]

end Cert.KernelIdeal.TileValue

end
-- ==== Proof.TileValue.lean ====
/-
  The output tile after the kernel body, entry by entry.

  The body loads its six buffers whole (a load through the whole-buffer rectangle at offset zero reads the contents),
  and stores output blade k's tile into slab k. So entry (k, rr, u) of the output tile is blade k's tile at (0, rr, u):
  the quaternion table's signed sum of the four blades' dense-layer outputs on row rr, at unit u.
-/
import proofs.«132976_j89300960018587_2_alg».proof.Proof.TileCanon
import proofs.«132976_j89300960018587_2_alg».proof.Proof.TileBlade

set_option maxRecDepth 16384

noncomputable section

open scoped BigOperators

namespace Cert.KernelIdeal.TileValue

open Cert.KernelIdeal Cert.KernelIdeal.Gen
open Idealize.ShloMosaic Idealize.ShloMosaic.ValueIdx Idealize.SL.Sem

variable [Facts]

/-- The offsets of a whole-buffer rectangle of a matrix are zero. -/
theorem zeros2 : (![0, 0] : Fin 2 → ℕ) = fun _ => 0 := by
  funext a
  match a with
  | ⟨0, _⟩ => rfl
  | ⟨1, _⟩ => rfl

/-- Entry (k, rr, u) of the output tile: output blade k of the dense layer's outputs on row rr, at unit u. -/
theorem out_apply (x0 x1 x2 x3 : Vec Ideal S1024x256 .f32) (x4 : Vec Ideal S256x1024 .bf16) (x5 : Vec Ideal S1x1024 .f32)
    (k : Fin 4) (rr : Fin 1024) (u : Fin 256) :
    Body.out (F := Ideal) x0 x1 x2 x3 x4 x5 (ix3 k rr u)
      = Cert.Spec.combine (Cert.Spec.tileLayer x0 x1 x2 x3 x4 x5 rr) k u := by
  have eX : ∀ x : Vec Ideal S1024x256 .f32, View.ld x Body.rX = x :=
    fun x => View.ld_unit_zero (S := S1024x256) zeros2 _ x
  have eW : View.ld x4 Body.rW = x4 := View.ld_unit_zero (S := S256x1024) zeros2 _ x4
  have eB : View.ld x5 Body.rB = x5 := View.ld_unit_zero (S := S1x1024) zeros2 _ x5
  unfold Body.out
  rw [eX x0, eX x1, eX x2, eX x3, eW, eB]
  refine (slabs_apply _ _ _ _ k rr u).trans ?_
  match k with
  | ⟨0, hk⟩ => exact tile0_apply x4 x5 x0 x1 x2 x3 rr u
  | ⟨1, hk⟩ => exact tile1_apply x4 x5 x0 x1 x2 x3 rr u
  | ⟨2, hk⟩ => exact tile2_apply x4 x5 x0 x1 x2 x3 rr u
  | ⟨3, hk⟩ => exact tile3_apply x4 x5 x0 x1 x2 x3 rr u

end Cert.KernelIdeal.TileValue

end
-- ==== Proof.KernelValueIdeal.lean ====
/-
  The kernel's result as one function of the arguments.

  What grid point `t` writes back into the output array is, entry by entry, the quaternion-signed sum of the dense
  layer's outputs at row `t * 1024 + rr` of each blade's chunk: the tile's value over the blocks, and the blocks read
  where the point puts them. The sixteen points' blocks tile the [4, 16384, 256] output array — point `r / 1024`
  covers row `r` of every blade — so the array ends holding that function everywhere, and the host's last line re-lays
  it as [65536, 256], row `k * 16384 + r` being row `r` of output blade `k`.
-/
import proofs.«132976_j89300960018587_2_alg».proof.Proof.BlocksIdeal
import proofs.«132976_j89300960018587_2_alg».proof.Proof.TileValue

set_option maxRecDepth 16384

noncomputable section

open scoped BigOperators

namespace Cert.KernelIdeal.KValue

open Cert.KernelIdeal Cert.KernelIdeal.Gen Cert.KernelIdeal.Frame Cert.KernelIdeal.Blocks
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

/-- The output array after the run: output blade `k`, row `r`, unit `u`. -/
def G (c : Dev nD) : S4x16384x256.Idx → EReal := fun i =>
  Cert.Spec.blade (m ((c : Thread nD τ).loc main_arg0)) (m ((c : Thread nD τ).loc main_arg1)) (m ((c : Thread nD τ).loc main_arg2))
    ⟨(i 0).val, (i 0).isLt⟩ ⟨(i 1).val, (i 1).isLt⟩ ⟨(i 2).val, (i 2).isLt⟩

theorem G_apply (c : Dev nD) (k : Fin 4) (r : Fin 16384) (u : Fin 256) :
    G m c (ix3 k r u) = Cert.Spec.blade (m ((c : Thread nD τ).loc main_arg0)) (m ((c : Thread nD τ).loc main_arg1))
      (m ((c : Thread nD τ).loc main_arg2)) k r u := rfl

/-- What grid point `t` writes back is block `t` of `G`. -/
theorem flushed_eq (c : Dev nD) (t : Fin cfg0.N) :
    (dat (V1 m ρ) c).flushed 6 t = ((cfg0.win 6).blk t).view.read (Elt Ideal) (G m c) := by
  obtain ⟨-, -, -, -, -, -, -, -, -, -, -, -, e0, e1, e2⟩ := idx_facts t
  show (cfg0.win 6).cut (grid0.coords t) ((dat (V1 m ρ) c).after 6 t) = _
  rw [after_6]
  show (Body.out (F := Ideal) (iblk (V1 m ρ) c 0 t) (iblk (V1 m ρ) c 1 t) (iblk (V1 m ρ) c 2 t) (iblk (V1 m ρ) c 3 t)
      (iblk (V1 m ρ) c 4 t) (iblk (V1 m ρ) c 5 t) : S4x1024x256.Idx → EReal)
    = fun y => G m c (((cfg0.win 6).blk t).view.emb y)
  funext y
  obtain ⟨k, rr, u, rfl⟩ : ∃ (k : Fin 4) (rr : Fin 1024) (u : Fin 256), y = ix3 k rr u := ⟨y 0, y 1, y 2, eq_ix3 y⟩
  have hidx : ((cfg0.win 6).blk t).view.emb (ix3 k rr u) = ix3 k (rowAt t rr) u := by
    funext a; apply Fin.ext
    match a with
    | ⟨0, _⟩ => show win0_6.index t (0 : Fin 3) * 4 + 1 * k.val = k.val; omega
    | ⟨1, _⟩ => show win0_6.index t (1 : Fin 3) * 1024 + 1 * rr.val = t.val * 1024 + rr.val; omega
    | ⟨2, _⟩ => show win0_6.index t (2 : Fin 3) * 256 + 1 * u.val = u.val; omega
  show _ = G m c (((cfg0.win 6).blk t).view.emb (ix3 k rr u))
  rw [hidx, G_apply, Cert.KernelIdeal.TileValue.out_apply, tileLayer_blocks]
  rfl

/-- An index of the output array is in point `t`'s block iff each coordinate is in the block's range on its axis. -/
theorem mem_blk (t : Fin cfg0.N) (i : S4x16384x256.Idx) :
    i ∈ ((cfg0.win 6).blk t).view.set ↔ ∀ a : Fin 3, win0_6.index t a * S4x1024x256.size a ≤ (i a).val
      ∧ (i a).val < win0_6.index t a * S4x1024x256.size a + S4x1024x256.size a := by
  show i ∈ ((View.whole main_v2).slice (win0_6.rect t)).set ↔ _
  rw [View.set_slice_whole, Rect.mem_set_unit]
  exact Iff.rfl

/-- The sixteen points' blocks cover the output array: point `r / 1024` covers row `r`. -/
theorem cover (i : S4x16384x256.Idx) :
    ∃ t : Fin cfg0.N, (cfg0.win 6).flush t = true ∧ i ∈ ((cfg0.win 6).blk t).view.set := by
  have h0 : (i 0).val < 4 := (i 0).isLt
  have h1 : (i 1).val < 16384 := (i 1).isLt
  have h2 : (i 2).val < 256 := (i 2).isLt
  have ht : (i 1).val / 1024 < cfg0.N := lt_of_lt_of_eq (by omega : (i 1).val / 1024 < 16) N_0.symm
  obtain ⟨-, -, -, -, -, -, -, -, -, -, -, -, e0, e1, e2⟩ := idx_facts ⟨(i 1).val / 1024, ht⟩
  refine ⟨⟨(i 1).val / 1024, ht⟩, flush0_6 _, ?_⟩
  rw [mem_blk]
  intro a
  match a with
  | ⟨0, _⟩ =>
    show win0_6.index ⟨(i 1).val / 1024, ht⟩ (0 : Fin 3) * 4 ≤ (i 0).val ∧ (i 0).val < win0_6.index ⟨(i 1).val / 1024, ht⟩ (0 : Fin 3) * 4 + 4
    omega
  | ⟨1, _⟩ =>
    show win0_6.index ⟨(i 1).val / 1024, ht⟩ (1 : Fin 3) * 1024 ≤ (i 1).val ∧ (i 1).val < win0_6.index ⟨(i 1).val / 1024, ht⟩ (1 : Fin 3) * 1024 + 1024
    have e1' : win0_6.index ⟨(i 1).val / 1024, ht⟩ (1 : Fin 3) = (i 1).val / 1024 := e1
    omega
  | ⟨2, _⟩ =>
    show win0_6.index ⟨(i 1).val / 1024, ht⟩ (2 : Fin 3) * 256 ≤ (i 2).val ∧ (i 2).val < win0_6.index ⟨(i 1).val / 1024, ht⟩ (2 : Fin 3) * 256 + 256
    omega

/-- The output array after every write-back. -/
theorem final (c : Dev nD) : (dat (V1 m ρ) c).arrAt 6 cfg0.N = G m c :=
  (dat (V1 m ρ) c).arrAt_eq_of_cover 6 (G m c) (fun t _ => flushed_eq m ρ c t) cover

/-- Re-laid as [65536, 256], the output array is the certificate's target function. -/
theorem result_eq (c : Dev nD) :
    shapeCast S65536x256 (G m c) Facts₀.shapeCasts_S4x16384x256_S65536x256
      = Cert.Spec.out (m ((c : Thread nD τ).loc main_arg0)) (m ((c : Thread nD τ).loc main_arg1)) (m ((c : Thread nD τ).loc main_arg2)) := by
  funext i
  have hi0 : (i 0).val < 65536 := (i 0).isLt
  have hi1 : (i 1).val < 256 := (i 1).isLt
  have hk : (i 0).val / 16384 < 4 := by omega
  have hr : (i 0).val % 16384 < 16384 := Nat.mod_lt _ (by decide)
  rw [shapeCast_apply (G m c) Facts₀.shapeCasts_S4x16384x256_S65536x256 i
    (ix3 (⟨(i 0).val / 16384, hk⟩ : Fin 4) (⟨(i 0).val % 16384, hr⟩ : Fin 16384) (⟨(i 1).val, hi1⟩ : Fin 256)) (by
      rw [Shape.rowMajor_val_three, Shape.rowMajor_val_two]
      show ((i 0).val / 16384 * 16384 + (i 0).val % 16384) * 256 + (i 1).val = (i 0).val * 256 + (i 1).val
      omega)]
  rfl

/-- The kernel's run: the result is the target function of the arguments, and the arguments end as launched. -/
theorem run : θ_run (defs (F := Ideal)) (onTc (τ := τ) (main (F := Ideal))) ⟨m, fun _ => 0, ρ⟩ (fun r => ∀ c : Dev nD,
      r.2.mem ((c.tc : Thread nD τ).loc main_v3)
        = Cert.Spec.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (by rw [final m ρ c]; exact result_eq m c), (h c).2⟩)
    (run_out (F := Ideal) m ρ)

end Cert.KernelIdeal.KValue

end
-- ==== Proof.RefStage.lean ====
/-
  The reference's fifty-eight host operations read as TWO stages.

  Stage one (`cross`), the first seven operations: the product `x W` of the `[65536, 256]` activations and the
  `[256, 1024]` weights, regrouped as four chunks of 16384 rows (`[4, 16384, 1024]`); the bias, repeated along the
  rows (`[16384, 1024]`), added into chunk 0 by a scatter at the constant index 0 along axis 0; the columns regrouped as
  four groups of 256 (`[4, 16384, 4, 256]`).

  Stage two (`assemble`), the other fifty-one operations, a function of stage one's array `A` alone: the sixteen
  slices `A[i, :, j, :]` (`slab`), each a `[16384, 256]` array; four signed sums of four of them, added from the
  left, a term with sign `-` being the negated slice (`blade0` … `blade3`); the four sums laid one after the other
  along the rows.

  `after_v56`: from any contents of the device's buffers, the contents after the fifty-eight operations hold at the result
  buffer `assemble` of `cross` of the three arguments' contents. The operation list is cut after the seventh operation:
  the contents after the whole list are the contents after the second part from the contents after the first
  (`after_append`); the second part reads the first part's contents at ONE buffer only.
-/
import proofs.«132976_j89300960018587_2_alg».proof.Proof.RefRun

noncomputable section

namespace Cert.RefSide

open Cert.ReferenceIdeal Cert.ReferenceIdeal.Gen Idealize.ShloMosaic Idealize.ShloMosaic.TcCoe Idealize.SL.Sem Idealize.ShloMosaic.StableHlo
open Cert.ReferenceIdeal.Value (ops)

variable {F : FTy → Type} [FloatOps F]

/-- Stage one: the product regrouped in four row chunks, the bias added into chunk 0, the columns regrouped in four
    groups. -/
def cross (x : (⟨S65536x256, .f32⟩ : BufTy).Contents (Elt F)) (W : (⟨S256x1024, .f32⟩ : BufTy).Contents (Elt F))
    (b : (⟨S1024, .f32⟩ : BufTy).Contents (Elt F)) : (⟨S4x16384x4x256, .f32⟩ : BufTy).Contents (Elt F) :=
  shapeCast _
    (Host.scatter scatter_S4x16384x1024_S1_S16384x1024_01_0_0_0 FloatOps.addf
      (shapeCast _ (Host.dotGeneral dot_S65536x256_S256x1024_S65536x1024_1_0_0_1_n_n none x W) shapeCasts_S65536x1024_S4x16384x1024)
      (broadcastInDim S1 ![] bcast_S_S1 (constantI S_ 32 0#32))
      (broadcastInDim S16384x1024 ![1] bcast_S1024_S16384x1024_1 b))
    shapeCasts_S4x16384x1024_S4x16384x4x256

/-- The slice of a `[4, 16384, 4, 256]` array at the corner `o`, one chunk by one group, as a `[16384, 256]` array. -/
def slab (o : Fin 4 → Nat) (h : S4x16384x4x256.Slices o S1x16384x1x256)
    (A : (⟨S4x16384x4x256, .f32⟩ : BufTy).Contents (Elt F)) : (⟨S16384x256, .f32⟩ : BufTy).Contents (Elt F) :=
  shapeCast _ (extractStridedSlice S1x16384x1x256 o A h) shapeCasts_S1x16384x1x256_S16384x256

/-- Output blade 0: `A[0,:,0,:] - A[1,:,1,:] - A[2,:,2,:] - A[3,:,3,:]`. -/
def blade0 (A : (⟨S4x16384x4x256, .f32⟩ : BufTy).Contents (Elt F)) : (⟨S16384x256, .f32⟩ : BufTy).Contents (Elt F) :=
  addf (addf (addf (slab ![0, 0, 0, 0] slices_S4x16384x4x256_S1x16384x1x256_0_0_0_0 A)
        (Host.negf (slab ![1, 0, 1, 0] slices_S4x16384x4x256_S1x16384x1x256_1_0_1_0 A)))
      (Host.negf (slab ![2, 0, 2, 0] slices_S4x16384x4x256_S1x16384x1x256_2_0_2_0 A)))
    (Host.negf (slab ![3, 0, 3, 0] slices_S4x16384x4x256_S1x16384x1x256_3_0_3_0 A))

/-- Output blade 1: `A[0,:,1,:] + A[1,:,0,:] + A[2,:,3,:] - A[3,:,2,:]`. -/
def blade1 (A : (⟨S4x16384x4x256, .f32⟩ : BufTy).Contents (Elt F)) : (⟨S16384x256, .f32⟩ : BufTy).Contents (Elt F) :=
  addf (addf (addf (slab ![0, 0, 1, 0] slices_S4x16384x4x256_S1x16384x1x256_0_0_1_0 A)
        (slab ![1, 0, 0, 0] slices_S4x16384x4x256_S1x16384x1x256_1_0_0_0 A))
      (slab ![2, 0, 3, 0] slices_S4x16384x4x256_S1x16384x1x256_2_0_3_0 A))
    (Host.negf (slab ![3, 0, 2, 0] slices_S4x16384x4x256_S1x16384x1x256_3_0_2_0 A))

/-- Output blade 2: `A[0,:,2,:] - A[1,:,3,:] + A[2,:,0,:] + A[3,:,1,:]`. -/
def blade2 (A : (⟨S4x16384x4x256, .f32⟩ : BufTy).Contents (Elt F)) : (⟨S16384x256, .f32⟩ : BufTy).Contents (Elt F) :=
  addf (addf (addf (slab ![0, 0, 2, 0] slices_S4x16384x4x256_S1x16384x1x256_0_0_2_0 A)
        (Host.negf (slab ![1, 0, 3, 0] slices_S4x16384x4x256_S1x16384x1x256_1_0_3_0 A)))
      (slab ![2, 0, 0, 0] slices_S4x16384x4x256_S1x16384x1x256_2_0_0_0 A))
    (slab ![3, 0, 1, 0] slices_S4x16384x4x256_S1x16384x1x256_3_0_1_0 A)

/-- Output blade 3: `A[0,:,3,:] + A[1,:,2,:] - A[2,:,1,:] + A[3,:,0,:]`. -/
def blade3 (A : (⟨S4x16384x4x256, .f32⟩ : BufTy).Contents (Elt F)) : (⟨S16384x256, .f32⟩ : BufTy).Contents (Elt F) :=
  addf (addf (addf (slab ![0, 0, 3, 0] slices_S4x16384x4x256_S1x16384x1x256_0_0_3_0 A)
        (slab ![1, 0, 2, 0] slices_S4x16384x4x256_S1x16384x1x256_1_0_2_0 A))
      (Host.negf (slab ![2, 0, 1, 0] slices_S4x16384x4x256_S1x16384x1x256_2_0_1_0 A)))
    (slab ![3, 0, 0, 0] slices_S4x16384x4x256_S1x16384x1x256_3_0_0_0 A)

/-- Stage two: the four output blades laid one after the other along the rows. -/
def assemble (A : (⟨S4x16384x4x256, .f32⟩ : BufTy).Contents (Elt F)) : (⟨S65536x256, .f32⟩ : BufTy).Contents (Elt F) :=
  concatenate S65536x256 0 [⟨S16384x256, blade0 A⟩, ⟨S16384x256, blade1 A⟩, ⟨S16384x256, blade2 A⟩, ⟨S16384x256, blade3 A⟩]
    concatenates_S16384x256_S16384x256_S16384x256_S16384x256_S65536x256_d0

/-- The contents after two lists of operations run one after the other: after the second from after the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- The first seven operations leave stage one at its buffer. -/
theorem after_pre_v5 (V : Valuation τ sig (Elt F)) :
    after ((ops (F := F)).take 7) V (Proc.devRef .tc main_v5)
      = cross (V (Proc.devRef .tc main_arg0)) (V (Proc.devRef .tc main_arg1)) (V (Proc.devRef .tc main_arg2)) := by
  simp only [ops, List.take_succ_cons, List.take_zero]
  after_results
  rfl

/-- The other fifty-one operations, from any contents `W`, leave at the result buffer stage two of the array `W` holds at
    stage one's buffer. -/
theorem after_rest_v56 (W : Valuation τ sig (Elt F)) :
    after ((ops (F := F)).drop 7) W (Proc.devRef .tc main_v56) = assemble (W (Proc.devRef .tc main_v5)) := by
  simp only [ops, List.drop_succ_cons, List.drop_zero]
  after_results_simp
  rfl

/-- The fifty-eight operations leave `assemble` of `cross` of the arguments at the result buffer. -/
theorem after_v56 (V : Valuation τ sig (Elt F)) :
    after (ops (F := F)) V (Proc.devRef .tc main_v56)
      = assemble (cross (V (Proc.devRef .tc main_arg0)) (V (Proc.devRef .tc main_arg1)) (V (Proc.devRef .tc main_arg2))) := by
  have h : after (ops (F := F)) V = after ((ops (F := F)).drop 7) (after ((ops (F := F)).take 7) V) := by
    rw [← after_append, List.take_append_drop]
  rw [h, after_rest_v56, after_pre_v5]

/-- No operation writes an argument's buffer. -/
theorem after_arg0 (V : Valuation τ sig (Elt F)) :
    after (ops (F := F)) V (Proc.devRef .tc main_arg0) = V (Proc.devRef .tc main_arg0) := by
  after_results_simp <;> rfl
theorem after_arg1 (V : Valuation τ sig (Elt F)) :
    after (ops (F := F)) V (Proc.devRef .tc main_arg1) = V (Proc.devRef .tc main_arg1) := by
  after_results_simp <;> rfl
theorem after_arg2 (V : Valuation τ sig (Elt F)) :
    after (ops (F := F)) V (Proc.devRef .tc main_arg2) = V (Proc.devRef .tc main_arg2) := by
  after_results_simp <;> rfl

end Cert.RefSide

end
-- ==== Proof.RefSlab.lean ====
/-
  Stage two of the reference read at an entry, on the extended reals.

  A slab `A[i, :, j, :]` of a `[4, 16384, 4, 256]` array, read at `(r, u)`, is `A` at `(i, r, j, u)`: the slice at
  the corner `(i, 0, j, 0)` shifts the coordinates by the corner, and dropping its two axes of size one keeps the
  row-major position. An output blade at `(r, u)` is the signed sum of its four slabs' entries, added from the left, a
  term with sign `-` being the negated entry. The four blades laid along the rows: row `k * 16384 + r` is row `r` of
  blade `k`.
-/
import proofs.«132976_j89300960018587_2_alg».proof.Proof.RefStage
import Idealize.ShloMosaic.Lib.Pipeline.Value
import Idealize.ShloMosaic.Lib.ValueIdx
import proofs.«132976_j89300960018587_2_alg».proof.Proof.Spec

noncomputable section

namespace Cert.RefSide

open Cert.ReferenceIdeal Cert.ReferenceIdeal.Gen Idealize.ShloMosaic Idealize.ShloMosaic.ValueIdx

/-- The slab at the corner `(i, 0, j, 0)`, read at `(r, u)`: the array at `(i, r, j, u)`. -/
theorem slab_apply {F : FTy → Type} [FloatOps F] (o : Fin 4 → Nat) (h : S4x16384x4x256.Slices o S1x16384x1x256)
    (A : (⟨S4x16384x4x256, .f32⟩ : BufTy).Contents (Elt F)) (i j : Fin 4) (ho : o = ![i.val, 0, j.val, 0])
    (r : Fin 16384) (u : Fin 256) :
    slab o h A (ix2 r u) = A (ix4 i r j u) := by
  subst ho
  unfold slab
  refine (shapeCast_apply _ shapeCasts_S1x16384x1x256_S16384x256 (ix2 r u)
    (ix4 (⟨0, Nat.one_pos⟩ : Fin 1) r (⟨0, Nat.one_pos⟩ : Fin 1) u) ?_).trans ?_
  · rewrite [Shape.rowMajor_val_four, Shape.rowMajor_val_two]
    show ((0 * 16384 + r.val) * 1 + 0) * 256 + u.val = r.val * 256 + u.val
    omega
  · exact extractStridedSlice_apply _ A h _ (ix4 i r j u) (fun a => match a with
      | ⟨0, _⟩ => by show i.val = i.val + 0; omega
      | ⟨1, _⟩ => by show r.val = 0 + r.val; omega
      | ⟨2, _⟩ => by show j.val = j.val + 0; omega
      | ⟨3, _⟩ => by show u.val = 0 + u.val; omega)

variable (A : (⟨S4x16384x4x256, .f32⟩ : BufTy).Contents (Elt Ideal)) (r : Fin 16384) (u : Fin 256)

/-- Blade 0 at `(r, u)`. -/
theorem blade0_apply :
    blade0 (F := Ideal) A (ix2 r u)
      = A (ix4 (0 : Fin 4) r (0 : Fin 4) u) + -(A (ix4 (1 : Fin 4) r (1 : Fin 4) u)) + -(A (ix4 (2 : Fin 4) r (2 : Fin 4) u))
        + -(A (ix4 (3 : Fin 4) r (3 : Fin 4) u)) := by
  unfold blade0
  rw [addf_apply, addf_apply, addf_apply]
  show slab _ _ A (ix2 r u) + -(slab _ _ A (ix2 r u)) + -(slab _ _ A (ix2 r u)) + -(slab _ _ A (ix2 r u)) = _
  rw [slab_apply ![0, 0, 0, 0] slices_S4x16384x4x256_S1x16384x1x256_0_0_0_0 A 0 0 rfl r u, slab_apply ![1, 0, 1, 0] slices_S4x16384x4x256_S1x16384x1x256_1_0_1_0 A 1 1 rfl r u,
    slab_apply ![2, 0, 2, 0] slices_S4x16384x4x256_S1x16384x1x256_2_0_2_0 A 2 2 rfl r u, slab_apply ![3, 0, 3, 0] slices_S4x16384x4x256_S1x16384x1x256_3_0_3_0 A 3 3 rfl r u]

/-- Blade 1 at `(r, u)`. -/
theorem blade1_apply :
    blade1 (F := Ideal) A (ix2 r u)
      = A (ix4 (0 : Fin 4) r (1 : Fin 4) u) + A (ix4 (1 : Fin 4) r (0 : Fin 4) u) + A (ix4 (2 : Fin 4) r (3 : Fin 4) u)
        + -(A (ix4 (3 : Fin 4) r (2 : Fin 4) u)) := by
  unfold blade1
  rw [addf_apply, addf_apply, addf_apply]
  show slab _ _ A (ix2 r u) + slab _ _ A (ix2 r u) + slab _ _ A (ix2 r u) + -(slab _ _ A (ix2 r u)) = _
  rw [slab_apply ![0, 0, 1, 0] slices_S4x16384x4x256_S1x16384x1x256_0_0_1_0 A 0 1 rfl r u, slab_apply ![1, 0, 0, 0] slices_S4x16384x4x256_S1x16384x1x256_1_0_0_0 A 1 0 rfl r u,
    slab_apply ![2, 0, 3, 0] slices_S4x16384x4x256_S1x16384x1x256_2_0_3_0 A 2 3 rfl r u, slab_apply ![3, 0, 2, 0] slices_S4x16384x4x256_S1x16384x1x256_3_0_2_0 A 3 2 rfl r u]

/-- Blade 2 at `(r, u)`. -/
theorem blade2_apply :
    blade2 (F := Ideal) A (ix2 r u)
      = A (ix4 (0 : Fin 4) r (2 : Fin 4) u) + -(A (ix4 (1 : Fin 4) r (3 : Fin 4) u)) + A (ix4 (2 : Fin 4) r (0 : Fin 4) u)
        + A (ix4 (3 : Fin 4) r (1 : Fin 4) u) := by
  unfold blade2
  rw [addf_apply, addf_apply, addf_apply]
  show slab _ _ A (ix2 r u) + -(slab _ _ A (ix2 r u)) + slab _ _ A (ix2 r u) + slab _ _ A (ix2 r u) = _
  rw [slab_apply ![0, 0, 2, 0] slices_S4x16384x4x256_S1x16384x1x256_0_0_2_0 A 0 2 rfl r u, slab_apply ![1, 0, 3, 0] slices_S4x16384x4x256_S1x16384x1x256_1_0_3_0 A 1 3 rfl r u,
    slab_apply ![2, 0, 0, 0] slices_S4x16384x4x256_S1x16384x1x256_2_0_0_0 A 2 0 rfl r u, slab_apply ![3, 0, 1, 0] slices_S4x16384x4x256_S1x16384x1x256_3_0_1_0 A 3 1 rfl r u]

/-- Blade 3 at `(r, u)`. -/
theorem blade3_apply :
    blade3 (F := Ideal) A (ix2 r u)
      = A (ix4 (0 : Fin 4) r (3 : Fin 4) u) + A (ix4 (1 : Fin 4) r (2 : Fin 4) u) + -(A (ix4 (2 : Fin 4) r (1 : Fin 4) u))
        + A (ix4 (3 : Fin 4) r (0 : Fin 4) u) := by
  unfold blade3
  rw [addf_apply, addf_apply, addf_apply]
  show slab _ _ A (ix2 r u) + slab _ _ A (ix2 r u) + -(slab _ _ A (ix2 r u)) + slab _ _ A (ix2 r u) = _
  rw [slab_apply ![0, 0, 3, 0] slices_S4x16384x4x256_S1x16384x1x256_0_0_3_0 A 0 3 rfl r u, slab_apply ![1, 0, 2, 0] slices_S4x16384x4x256_S1x16384x1x256_1_0_2_0 A 1 2 rfl r u,
    slab_apply ![2, 0, 1, 0] slices_S4x16384x4x256_S1x16384x1x256_2_0_1_0 A 2 1 rfl r u, slab_apply ![3, 0, 0, 0] slices_S4x16384x4x256_S1x16384x1x256_3_0_0_0 A 3 0 rfl r u]

/-- Off the joined axis a piece's index and the whole's have the same coordinate: the column. -/
theorem piece_off (row : Fin 65536) (r' : Fin 16384) (u' : Fin 256) :
    ∀ b : Fin S16384x256.rank, b.cast (rfl : S16384x256.rank = S65536x256.rank) ≠ (0 : Fin S65536x256.rank) →
      ((ix2 r' u' : S16384x256.Idx) b).val = ((ix2 row u' : S65536x256.Idx) (b.cast rfl)).val := fun b hb =>
  match b, hb with
  | ⟨0, _⟩, hb => absurd (Fin.ext rfl) hb
  | ⟨1, _⟩, _ => rfl

/-! Stage two at row `k * 16384 + r` is blade `k` at row `r`: blade `k` is the piece of the concatenation whose rows
    start after the `k` pieces of 16384 rows before it. -/

theorem assemble_apply0 {F : FTy → Type} [FloatOps F] (B : (⟨S4x16384x4x256, .f32⟩ : BufTy).Contents (Elt F))
    (r' : Fin 16384) (u' : Fin 256) :
    assemble B (ix2 (Cert.Spec.rowOf (0 : Fin 4) r') u') = blade0 B (ix2 r' u') := by
  unfold assemble
  exact concatenate_apply_piece (t := S65536x256) 0 _ _ _ 0 (by show (0 : Nat) < 4; decide) S16384x256 (blade0 B) rfl rfl
    0 rfl (ix2 r' u') (piece_off _ r' u') (by show 0 + r'.val = 0 * 16384 + r'.val; omega)

theorem assemble_apply1 {F : FTy → Type} [FloatOps F] (B : (⟨S4x16384x4x256, .f32⟩ : BufTy).Contents (Elt F))
    (r' : Fin 16384) (u' : Fin 256) :
    assemble B (ix2 (Cert.Spec.rowOf (1 : Fin 4) r') u') = blade1 B (ix2 r' u') := by
  unfold assemble
  exact concatenate_apply_piece (t := S65536x256) 0 _ _ _ 1 (by show (1 : Nat) < 4; decide) S16384x256 (blade1 B) rfl rfl
    (16384 + 0) rfl (ix2 r' u') (piece_off _ r' u') (by show (16384 + 0) + r'.val = 1 * 16384 + r'.val; omega)

theorem assemble_apply2 {F : FTy → Type} [FloatOps F] (B : (⟨S4x16384x4x256, .f32⟩ : BufTy).Contents (Elt F))
    (r' : Fin 16384) (u' : Fin 256) :
    assemble B (ix2 (Cert.Spec.rowOf (2 : Fin 4) r') u') = blade2 B (ix2 r' u') := by
  unfold assemble
  exact concatenate_apply_piece (t := S65536x256) 0 _ _ _ 2 (by show (2 : Nat) < 4; decide) S16384x256 (blade2 B) rfl rfl
    (16384 + (16384 + 0)) rfl (ix2 r' u') (piece_off _ r' u') (by show (16384 + (16384 + 0)) + r'.val = 2 * 16384 + r'.val; omega)

theorem assemble_apply3 {F : FTy → Type} [FloatOps F] (B : (⟨S4x16384x4x256, .f32⟩ : BufTy).Contents (Elt F))
    (r' : Fin 16384) (u' : Fin 256) :
    assemble B (ix2 (Cert.Spec.rowOf (3 : Fin 4) r') u') = blade3 B (ix2 r' u') := by
  unfold assemble
  exact concatenate_apply_piece (t := S65536x256) 0 _ _ _ 3 (by show (3 : Nat) < 4; decide) S16384x256 (blade3 B) rfl rfl
    (16384 + (16384 + (16384 + 0))) rfl (ix2 r' u') (piece_off _ r' u') (by show (16384 + (16384 + (16384 + 0))) + r'.val = 3 * 16384 + r'.val; omega)

end Cert.RefSide

end
-- ==== Proof.LibScatterRows.lean ====
/-
  A BLOCK OF ROWS WRITTEN INTO A LARGER ARRAY BY ONE SCATTER WINDOW, read at an entry.

  `stablehlo.scatter` of an `[N, C]` array of updates into an `[M, C]` operand, with both axes of the updates
  window axes, no inserted axis, the one component of the single scatter index naming the operand's axis 0, and
  that index equal to 0: the whole of the updates is ONE window whose corner is the operand's corner (what writing
  an array into the first `N` rows of a larger one lowers to). Entry `(k, c)` of the result is the body applied to
  the operand's entry and the update's entry `(k, c)` when `k < N`, and the operand's entry when `N ≤ k`
  (`scatter_rows_apply`).

  The scatter is a left fold of point updates over the update indices in row-major order. Three layers:
  * a fold of point updates over any list, read at one point: a point no element of the list is sent to keeps its
    value (`foldl_point_of_not_hit`); a point exactly one element of a list without repeats is sent to is
    updated once, by that element (`foldl_point_of_hit_once`);
  * the same two statements for `Host.scatter` with any dimension numbers, in terms of the result index of each
    update index (`scatter_apply_of_not_hit`, `scatter_apply_of_hit_once`): the update indices in row-major order
    are the list of all of them, without repeats, because row-major order is a bijection;
  * for the dimension numbers above the window starts at 0 on both axes and the window coordinate on each axis is
    the update index's own coordinate, so update index `(r, c)` lands at operand index `(r, c)`
    (`rows_resultIdx`): an injective map whose image is the rows below `N`.
-/
import Idealize.ShloMosaic.Lib.ValueIdx
import Idealize.ShloMosaic.PureOps.ShapeOps

noncomputable section

namespace Cert.LibScatterRows

open Idealize.ShloMosaic Idealize.ShloMosaic.ValueIdx

/-! ## A left fold of point updates, read at one point

`g n` is the point element `n` updates (`none`: it updates nothing), `u n` the value it brings, `f` combines the old
value with the brought one. The step is given by its two defining equations rather than as a `match`, so that the
lemmas apply to any function that satisfies them. -/

section Fold
variable {ι κ α : Type} [DecidableEq ι]

/-- A point that no element of the list updates keeps its value through the fold. By induction on the list: the
    head's step changes only the point the head is sent to, which is another one. -/
theorem foldl_point_of_not_hit (g : κ → Option ι) (f : α → α → α) (u : κ → α)
    (step : (ι → α) → κ → ι → α)
    (hs : ∀ r n i, g n = some i → step r n = fun j => if j = i then f (r i) (u n) else r j)
    (hn : ∀ r n, g n = none → step r n = r)
    (L : List κ) (x : ι → α) (i' : ι) (h : ∀ n ∈ L, g n ≠ some i') :
    L.foldl step x i' = x i' := by
  induction L generalizing x with
  | nil => rfl
  | cons n L ih =>
    rw [List.foldl_cons, ih _ (fun m hm => h m (List.mem_cons_of_mem _ hm))]
    cases hg : g n with
    | none => rw [hn x n hg]
    | some i =>
      rw [hs x n i hg]
      have hne : i' ≠ i := fun e => h n (List.mem_cons_self ..) (by rw [hg, e])
      exact if_neg hne

/-- A point that exactly one element `n0` of a list without repeats updates is, after the fold, `f` of its first value
    and the value `n0` brings. By induction on the list: if `n0` is the head, the head's step makes the update and
    the tail (which does not contain `n0` again, so updates the point no more) keeps it; if `n0` is in the tail, the
    head is another element, so leaves the point alone, and the induction hypothesis applies to the tail. -/
theorem foldl_point_of_hit_once (g : κ → Option ι) (f : α → α → α) (u : κ → α)
    (step : (ι → α) → κ → ι → α)
    (hs : ∀ r n i, g n = some i → step r n = fun j => if j = i then f (r i) (u n) else r j)
    (hn : ∀ r n, g n = none → step r n = r)
    (L : List κ) (hnd : L.Nodup) (x : ι → α) (i' : ι) (n0 : κ) (hn0 : n0 ∈ L) (hg0 : g n0 = some i')
    (huniq : ∀ n ∈ L, g n = some i' → n = n0) :
    L.foldl step x i' = f (x i') (u n0) := by
  induction L generalizing x with
  | nil => cases hn0
  | cons n L ih =>
    rw [List.foldl_cons]
    have hnd' := List.nodup_cons.1 hnd
    rcases List.mem_cons.1 hn0 with heq | hmem
    · subst heq
      rw [foldl_point_of_not_hit g f u step hs hn L _ i' (fun m hm hgm => by
        have := huniq m (List.mem_cons_of_mem _ hm) hgm
        subst this; exact hnd'.1 hm)]
      rw [hs x n0 i' hg0]; exact if_pos rfl
    · have hne : n ≠ n0 := fun e => hnd'.1 (e ▸ hmem)
      have hgn : g n ≠ some i' := fun e => hne (huniq n (List.mem_cons_self ..) e)
      rw [ih hnd'.2 _ hmem (fun m hm => huniq m (List.mem_cons_of_mem _ hm))]
      congr 1
      cases hg : g n with
      | none => rw [hn x n hg]
      | some i => rw [hs x n i hg]; exact if_neg (fun e => hgn (by rw [hg, e]))

end Fold

/-! ## `Host.scatter` read at an operand index, for any dimension numbers -/

section Scatter
variable {α : Type} {s si u : Shape} {w : Nat}

/-- An operand index that is the result index of no update index keeps the operand's element. -/
theorem scatter_apply_of_not_hit (d : ScatterDims s si u) (f : α → α → α) (x : s.Idx → α) (idx : IVec si w)
    (upd : u.Idx → α) (i' : s.Idx) (h : ∀ j, d.resultIdx? j idx ≠ some i') :
    Host.scatter d f x idx upd i' = x i' := by
  unfold Host.scatter
  exact foldl_point_of_not_hit (fun n => d.resultIdx? (u.rowMajor.symm n) idx) f (fun n => upd (u.rowMajor.symm n)) _
    (fun r n i hg => by
      have hg' : d.resultIdx? (u.rowMajor.symm n) idx = some i := hg
      simp only [hg'])
    (fun r n hg => by
      have hg' : d.resultIdx? (u.rowMajor.symm n) idx = none := hg
      simp only [hg'])
    (List.finRange u.numel) x i' (fun n _ => h (u.rowMajor.symm n))

/-- An operand index that is the result index of exactly one update index `j0` holds the body applied to the
    operand's element and the update's element at `j0`. The fold runs over the positions `0 … numel − 1`, a list
    without repeats, each standing for the update index at that row-major position; that correspondence is a
    bijection, so the one position sent to the operand index is `j0`'s. -/
theorem scatter_apply_of_hit_once (d : ScatterDims s si u) (f : α → α → α) (x : s.Idx → α) (idx : IVec si w)
    (upd : u.Idx → α) (i' : s.Idx) (j0 : u.Idx) (h0 : d.resultIdx? j0 idx = some i')
    (huniq : ∀ j, d.resultIdx? j idx = some i' → j = j0) :
    Host.scatter d f x idx upd i' = f (x i') (upd j0) := by
  unfold Host.scatter
  refine (foldl_point_of_hit_once (fun n => d.resultIdx? (u.rowMajor.symm n) idx) f
    (fun n => upd (u.rowMajor.symm n)) _
    (fun r n i hg => by
      have hg' : d.resultIdx? (u.rowMajor.symm n) idx = some i := hg
      simp only [hg'])
    (fun r n hg => by
      have hg' : d.resultIdx? (u.rowMajor.symm n) idx = none := hg
      simp only [hg'])
    (List.finRange u.numel) (List.nodup_finRange _) x i' (u.rowMajor j0) (List.mem_finRange _)
    (by simp only [Equiv.symm_apply_apply]; exact h0)
    (fun n _ hg => by
      have := huniq (u.rowMajor.symm n) hg
      rw [← this, Equiv.apply_symm_apply])).trans ?_
  simp only [Equiv.symm_apply_apply]

end Scatter

/-! ## One window of `N` rows at the corner of an `[M, C]` operand -/

section Rows
variable {M N C w : Nat}

/-- The dimension numbers: operand `[M, C]`, scatter indices `[1]` (one index vector of one component, along axis
    0), updates `[N, C]`; both update axes are window axes, no operand axis is inserted, the index's component
    is the start on operand axis 0. Their conditions `wf` are decided on a program's literal shapes. -/
abbrev rowsDims (M N C : Nat) (wf : ScatterDims.WF ⟨2, ![M, C]⟩ ⟨1, ![1]⟩ ⟨2, ![N, C]⟩ [0, 1] [] [0] 0) :
    ScatterDims ⟨2, ![M, C]⟩ ⟨1, ![1]⟩ ⟨2, ![N, C]⟩ where
  updateWindowDims := [0, 1]
  insertedWindowDims := []
  scatterDimsToOperandDims := [0]
  indexVectorDim := 0
  wf := wf

/-- With no inserted axis the operand's kept axes are both of its axes. -/
theorem rows_sKept (wf : ScatterDims.WF ⟨2, ![M, C]⟩ ⟨1, ![1]⟩ ⟨2, ![N, C]⟩ [0, 1] [] [0] 0) :
    (rowsDims M N C wf).sKept = [0, 1] := rfl

/-- The conditions contain `N ≤ M`: window axis 0 of the updates is at most the operand axis it goes to. -/
theorem rows_le (wf : ScatterDims.WF ⟨2, ![M, C]⟩ ⟨1, ![1]⟩ ⟨2, ![N, C]⟩ [0, 1] [] [0] 0) : N ≤ M :=
  (rowsDims M N C wf).window_size ⟨0, Nat.zero_lt_two⟩

/-- The window starts at 0 on operand axis 0: that start is the scatter index's one component, read at the
    scatter-indices index whose only coordinate is 0, and it is 0 by hypothesis. -/
theorem rows_start0 (wf : ScatterDims.WF ⟨2, ![M, C]⟩ ⟨1, ![1]⟩ ⟨2, ![N, C]⟩ [0, 1] [] [0] 0)
    (idx : IVec ⟨1, ![1]⟩ w) (hidx : (idx (ix1 0)).toInt = 0) (j : (⟨2, ![N, C]⟩ : Shape).Idx) :
    (rowsDims M N C wf).start j idx 0 = 0 := by
  unfold ScatterDims.start
  rw [dif_pos (show (0 : Fin 2) ∈ (rowsDims M N C wf).scatterDimsToOperandDims from List.mem_singleton.mpr rfl)]
  have hsi : (rowsDims M N C wf).siIdx j ⟨List.idxOf (0 : Fin 2) (rowsDims M N C wf).scatterDimsToOperandDims,
      List.idxOf_lt_length_iff.2 (List.mem_singleton.mpr rfl)⟩ = ix1 0 := by
    funext b; refine Fin.ext ?_
    match b with
    | ⟨0, _⟩ => rfl
  rw [hsi]; exact hidx

/-- The window starts at 0 on operand axis 1: the scatter index has no component for it. -/
theorem rows_start1 (wf : ScatterDims.WF ⟨2, ![M, C]⟩ ⟨1, ![1]⟩ ⟨2, ![N, C]⟩ [0, 1] [] [0] 0)
    (idx : IVec ⟨1, ![1]⟩ w) (j : (⟨2, ![N, C]⟩ : Shape).Idx) :
    (rowsDims M N C wf).start j idx 1 = 0 := by
  unfold ScatterDims.start
  rw [dif_neg (show (1 : Fin 2) ∉ (rowsDims M N C wf).scatterDimsToOperandDims from
    fun h => Nat.one_ne_zero (congrArg Fin.val (List.mem_singleton.mp h)))]

/-- The window coordinate on operand axis 0 is the update index's coordinate 0. -/
theorem rows_window0 (wf : ScatterDims.WF ⟨2, ![M, C]⟩ ⟨1, ![1]⟩ ⟨2, ![N, C]⟩ [0, 1] [] [0] 0)
    (j : (⟨2, ![N, C]⟩ : Shape).Idx) : (rowsDims M N C wf).window j 0 = (j 0).val := by
  unfold ScatterDims.window
  rw [dif_pos (show (0 : Fin 2) ∈ (rowsDims M N C wf).sKept by rw [rows_sKept]; exact List.mem_cons_self ..)]
  rfl

/-- The window coordinate on operand axis 1 is the update index's coordinate 1. -/
theorem rows_window1 (wf : ScatterDims.WF ⟨2, ![M, C]⟩ ⟨1, ![1]⟩ ⟨2, ![N, C]⟩ [0, 1] [] [0] 0)
    (j : (⟨2, ![N, C]⟩ : Shape).Idx) : (rowsDims M N C wf).window j 1 = (j 1).val := by
  unfold ScatterDims.window
  rw [dif_pos (show (1 : Fin 2) ∈ (rowsDims M N C wf).sKept by rw [rows_sKept]; exact List.mem_cons_of_mem _ (List.mem_cons_self ..))]
  rfl

end Rows

section RowsMain
variable {α : Type} {M N C w : Nat}

/-- Update index `(r, c)` lands at operand index `(r, c)`: start plus window coordinate is `0 + r` on axis 0 and
    `0 + c` on axis 1, inside the operand because `r < N ≤ M` and `c < C`; no update is dropped. -/
theorem rows_resultIdx (wf : ScatterDims.WF ⟨2, ![M, C]⟩ ⟨1, ![1]⟩ ⟨2, ![N, C]⟩ [0, 1] [] [0] 0)
    (idx : IVec ⟨1, ![1]⟩ w) (hidx : (idx (ix1 0)).toInt = 0) (j : (⟨2, ![N, C]⟩ : Shape).Idx) :
    (rowsDims M N C wf).resultIdx? j idx
      = some (ix2 ⟨(j 0).val, Nat.lt_of_lt_of_le (idx2_lt0 j) (rows_le wf)⟩ (j 1)) := by
  have hNM := rows_le wf
  have hj0 := idx2_lt0 j
  have hj1 := idx2_lt1 j
  have h0 : (rowsDims M N C wf).start j idx 0 + ((rowsDims M N C wf).window j 0 : Int) = ((j 0).val : Int) := by
    rw [rows_start0 wf idx hidx j, rows_window0 wf j, Int.zero_add]
  have h1 : (rowsDims M N C wf).start j idx 1 + ((rowsDims M N C wf).window j 1 : Int) = ((j 1).val : Int) := by
    rw [rows_start1 wf idx j, rows_window1 wf j, Int.zero_add]
  unfold ScatterDims.resultIdx?
  have hall : ∀ a : Fin 2, 0 ≤ (rowsDims M N C wf).start j idx a + ((rowsDims M N C wf).window j a : Int) ∧
      (rowsDims M N C wf).start j idx a + ((rowsDims M N C wf).window j a : Int)
        < (((⟨2, ![M, C]⟩ : Shape).size a : Nat) : Int) := by
    intro a
    match a with
    | ⟨0, _⟩ =>
      show 0 ≤ (rowsDims M N C wf).start j idx 0 + ((rowsDims M N C wf).window j 0 : Int) ∧
        (rowsDims M N C wf).start j idx 0 + ((rowsDims M N C wf).window j 0 : Int) < ((M : Nat) : Int)
      rw [h0]; exact ⟨by omega, by omega⟩
    | ⟨1, _⟩ =>
      show 0 ≤ (rowsDims M N C wf).start j idx 1 + ((rowsDims M N C wf).window j 1 : Int) ∧
        (rowsDims M N C wf).start j idx 1 + ((rowsDims M N C wf).window j 1 : Int) < ((C : Nat) : Int)
      rw [h1]; exact ⟨by omega, by omega⟩
  rw [dif_pos hall]
  congr 1
  funext a
  refine Fin.ext ?_
  match a with
  | ⟨0, _⟩ =>
    show ((rowsDims M N C wf).start j idx 0 + ((rowsDims M N C wf).window j 0 : Int)).toNat = (j 0).val
    rw [h0]; exact Int.toNat_natCast _
  | ⟨1, _⟩ =>
    show ((rowsDims M N C wf).start j idx 1 + ((rowsDims M N C wf).window j 1 : Int)).toNat = (j 1).val
    rw [h1]; exact Int.toNat_natCast _

/-- THE SCATTER READ AT `(k, c)`: in the first `N` rows the body applied to the operand's entry and the update's
    entry at the same place, below them the operand's entry. The map from update indices to operand indices is
    `(r, c) ↦ (r, c)`: for `k < N` its only preimage of `(k, c)` is `(k, c)` itself, and for `N ≤ k` there is none
    because an update index's row is below `N`. -/
theorem scatter_rows_apply (wf : ScatterDims.WF ⟨2, ![M, C]⟩ ⟨1, ![1]⟩ ⟨2, ![N, C]⟩ [0, 1] [] [0] 0)
    (f : α → α → α) (x : (⟨2, ![M, C]⟩ : Shape).Idx → α) (idx : IVec ⟨1, ![1]⟩ w)
    (hidx : (idx (ix1 0)).toInt = 0) (upd : (⟨2, ![N, C]⟩ : Shape).Idx → α) (k : Fin M) (c : Fin C) :
    Host.scatter (rowsDims M N C wf) f x idx upd (ix2 k c)
      = if h : k.val < N then f (x (ix2 k c)) (upd (ix2 ⟨k.val, h⟩ c)) else x (ix2 k c) := by
  by_cases h : k.val < N
  · rw [dif_pos h]
    refine scatter_apply_of_hit_once (rowsDims M N C wf) f x idx upd (ix2 k c) (ix2 ⟨k.val, h⟩ c) ?_ ?_
    · rw [rows_resultIdx wf idx hidx]; rfl
    · intro j hj
      rw [rows_resultIdx wf idx hidx j] at hj
      have e := Option.some.inj hj
      have e0 : (j 0).val = k.val := congrArg Fin.val (congrFun e 0)
      have e1 : j 1 = c := congrFun e 1
      rw [eq_ix2 j]
      congr 1
      · exact Fin.ext e0
  · rw [dif_neg h]
    refine scatter_apply_of_not_hit (rowsDims M N C wf) f x idx upd (ix2 k c) ?_
    intro j hj
    rw [rows_resultIdx wf idx hidx j] at hj
    have e := Option.some.inj hj
    have e0 : (j 0).val = k.val := congrArg Fin.val (congrFun e 0)
    have := idx2_lt0 j
    omega

end RowsMain

end Cert.LibScatterRows

end
-- ==== Proof.LibScatterAt.lean ====
/-
  A SCATTER WHOSE UPDATE INDICES LAND AT KNOWN, PAIRWISE DISTINCT PLACES, read at an entry.

  `stablehlo.scatter` sends update index `j` to the operand index whose coordinate on every axis is the window's
  start plus the window coordinate of `j`, when that is inside the operand. Two general facts, for any dimension
  numbers:
  * when start plus window coordinate is, axis by axis, the coordinate of a given operand index `i`, the update
    lands at `i` and is not dropped (`resultIdx_of_coords`): the conditions `0 ≤ · < size` hold because `i` is an
    index of the operand;
  * when every update index `j` lands at `g j` for an injective map `g` (one window written at a fixed place,
    whatever its rank), the scatter read at `g j0` is the body applied to the operand's entry and the update's
    entry at `j0` (`scatter_apply_at_image`), and read at an index outside the image of `g` it is the operand's
    entry (`scatter_apply_off_image`): each operand entry meets at most one update of the fold.
-/
import proofs.«132976_j89300960018587_2_alg».proof.Proof.LibScatterRows

noncomputable section

namespace Cert.LibScatterAt

open Idealize.ShloMosaic Idealize.ShloMosaic.ValueIdx

variable {α : Type} {s si u : Shape} {w : Nat}

/-- An update index whose start plus window coordinate is, on every axis, the coordinate of the operand index `i`
    lands at `i`. -/
theorem resultIdx_of_coords (d : ScatterDims s si u) (j : u.Idx) (idx : IVec si w) (i : s.Idx)
    (h : ∀ a, d.start j idx a + (d.window j a : Int) = ((i a).val : Int)) :
    d.resultIdx? j idx = some i := by
  unfold ScatterDims.resultIdx?
  have hall : ∀ a, 0 ≤ d.start j idx a + (d.window j a : Int) ∧
      d.start j idx a + (d.window j a : Int) < ((s.size a : Nat) : Int) := by
    intro a
    rw [h a]
    have := (i a).isLt
    exact ⟨by omega, by omega⟩
  rw [dif_pos hall]
  congr 1
  funext a
  refine Fin.ext ?_
  show (d.start j idx a + (d.window j a : Int)).toNat = (i a).val
  rw [h a]
  exact Int.toNat_natCast _

/-- Every update index `j` lands at `g j`, `g` injective: the entry at `g j0` is the body applied to the operand's
    entry there and the update's entry at `j0`. -/
theorem scatter_apply_at_image (d : ScatterDims s si u) (f : α → α → α) (x : s.Idx → α) (idx : IVec si w)
    (upd : u.Idx → α) (g : u.Idx → s.Idx) (hg : ∀ j, d.resultIdx? j idx = some (g j))
    (hinj : Function.Injective g) (i' : s.Idx) (j0 : u.Idx) (h0 : g j0 = i') :
    Host.scatter d f x idx upd i' = f (x i') (upd j0) := by
  refine Cert.LibScatterRows.scatter_apply_of_hit_once d f x idx upd i' j0 (by rw [hg j0, h0]) ?_
  intro j hj
  rw [hg j] at hj
  exact hinj ((Option.some.inj hj).trans h0.symm)

/-- Every update index `j` lands at `g j`: an entry no `g j` equals keeps the operand's value. -/
theorem scatter_apply_off_image (d : ScatterDims s si u) (f : α → α → α) (x : s.Idx → α) (idx : IVec si w)
    (upd : u.Idx → α) (g : u.Idx → s.Idx) (hg : ∀ j, d.resultIdx? j idx = some (g j))
    (i' : s.Idx) (h : ∀ j, g j ≠ i') :
    Host.scatter d f x idx upd i' = x i' := by
  refine Cert.LibScatterRows.scatter_apply_of_not_hit d f x idx upd i' ?_
  intro j hj
  rw [hg j] at hj
  exact h j (Option.some.inj hj)

end Cert.LibScatterAt

end
-- ==== Proof.RefCross.lean ====
/-
  Stage one of the reference read at an entry, on the extended reals: `cross x W b` at `(i, r, j, u)` is the dense
  layer on row `r` of blade `i` at column `j * 256 + u` (`Cert.Spec.layer`).

  * Regrouping the 1024 columns as four groups of 256 keeps the row-major position: `(i, r, j, u)` of the
    `[4, 16384, 4, 256]` array is `(i, r, j * 256 + u)` of the `[4, 16384, 1024]` array.
  * The scatter sends update index `(r, c)` of the `[16384, 1024]` updates to operand index `(0, r, c)`: the one scatter
    index is the constant 0 and names operand axis 0, which the window does not have; the window's two axes are the
    operand's axes 1 and 2 and start at 0. That map is injective and its image is chunk 0. So at `(0, r, c)` the result
    is the operand's entry plus the update's entry `(r, c)`, and at `(i, r, c)` with `i ≠ 0` it is the operand's entry.
  * The update `(r, c)` is the bias at `c` (a broadcast along the rows).
  * The operand at `(i, r, c)` is the product at row `i * 16384 + r`, column `c` (regrouping the rows keeps the
    row-major position), and the product's entry is the sum over the 256 input features.
-/
import proofs.«132976_j89300960018587_2_alg».proof.Proof.RefStage
import proofs.«132976_j89300960018587_2_alg».proof.Proof.RefRead
import proofs.«132976_j89300960018587_2_alg».proof.Proof.LibScatterAt
import proofs.«132976_j89300960018587_2_alg».proof.Proof.Spec
import Idealize.ShloMosaic.Lib.Pipeline.Value
import Idealize.ShloMosaic.Lib.ValueIdx

noncomputable section

open scoped BigOperators

namespace Cert.RefSide

open Cert.ReferenceIdeal Cert.ReferenceIdeal.Gen Idealize.ShloMosaic Idealize.ShloMosaic.ValueIdx

/-- The scatter's dimension numbers. -/
local notation "scd" => scatter_S4x16384x1024_S1_S16384x1024_01_0_0_0

/-- The scatter indices: the one index, the constant 0. -/
def idx0 : IVec S1 32 := broadcastInDim S1 ![] bcast_S_S1 (constantI S_ 32 0#32)

/-- Where update index `(r, c)` lands: `(0, r, c)`. -/
def land (j : S16384x1024.Idx) : S4x16384x1024.Idx :=
  ix3 (0 : Fin 4) (⟨(j 0).val, idx2_lt0 j⟩ : Fin 16384) (⟨(j 1).val, idx2_lt1 j⟩ : Fin 1024)

theorem land_injective : Function.Injective land := fun j j' h => by
  rw [eq_ix2 j, eq_ix2 j']
  have h1 : (j 0).val = (j' 0).val := congrArg (fun f : S4x16384x1024.Idx => (f 1).val) h
  have h2 : (j 1).val = (j' 1).val := congrArg (fun f : S4x16384x1024.Idx => (f 2).val) h
  rw [Fin.ext h1, Fin.ext h2]

/-- The window starts at the scatter index, 0, on operand axis 0 … -/
theorem sc_start0 (j : S16384x1024.Idx) : (scd).start j idx0 0 = 0 := by
  unfold ScatterDims.start
  rw [dif_pos (show (0 : Fin 3) ∈ (scd).scatterDimsToOperandDims from List.mem_singleton.mpr rfl)]
  rfl

/-- … and at 0 on the axes the scatter index does not name. -/
theorem sc_start1 (j : S16384x1024.Idx) : (scd).start j idx0 1 = 0 := by
  unfold ScatterDims.start
  rw [dif_neg (show (1 : Fin 3) ∉ (scd).scatterDimsToOperandDims by decide)]
theorem sc_start2 (j : S16384x1024.Idx) : (scd).start j idx0 2 = 0 := by
  unfold ScatterDims.start
  rw [dif_neg (show (2 : Fin 3) ∉ (scd).scatterDimsToOperandDims by decide)]

/-- The window has no extent on operand axis 0 (an inserted axis) … -/
theorem sc_window0 (j : S16384x1024.Idx) : (scd).window j 0 = 0 := by
  unfold ScatterDims.window
  rw [dif_neg (show (0 : Fin 3) ∉ (scd).sKept by decide)]

/-- … and its coordinates on operand axes 1 and 2 are the update index's two coordinates. -/
theorem sc_window1 (j : S16384x1024.Idx) : (scd).window j 1 = (j 0).val := by
  unfold ScatterDims.window
  rw [dif_pos (show (1 : Fin 3) ∈ (scd).sKept by decide)]
  rfl
theorem sc_window2 (j : S16384x1024.Idx) : (scd).window j 2 = (j 1).val := by
  unfold ScatterDims.window
  rw [dif_pos (show (2 : Fin 3) ∈ (scd).sKept by decide)]
  rfl

/-- Update index `(r, c)` lands at `(0, r, c)`, and is not dropped. -/
theorem sc_land (j : S16384x1024.Idx) : (scd).resultIdx? j idx0 = some (land j) :=
  Cert.LibScatterAt.resultIdx_of_coords (scd) j idx0 (land j) (fun a => match a with
    | ⟨0, _⟩ => by
      show (scd).start j idx0 0 + (((scd).window j 0 : Nat) : Int) = ((0 : Nat) : Int)
      rw [sc_start0, sc_window0]; rfl
    | ⟨1, _⟩ => by
      show (scd).start j idx0 1 + (((scd).window j 1 : Nat) : Int) = (((j 0).val : Nat) : Int)
      rw [sc_start1, sc_window1, Int.zero_add]
    | ⟨2, _⟩ => by
      show (scd).start j idx0 2 + (((scd).window j 2 : Nat) : Int) = (((j 1).val : Nat) : Int)
      rw [sc_start2, sc_window2, Int.zero_add])

variable {α : Type}

/-- The scatter in chunk 0: the body applied to the operand's entry and the update's entry of the same row and column. -/
theorem scatter_chunk0 (f : α → α → α) (P : S4x16384x1024.Idx → α) (U : S16384x1024.Idx → α) (r : Fin 16384) (c : Fin 1024) :
    Host.scatter (scd) f P idx0 U (ix3 (0 : Fin 4) r c) = f (P (ix3 (0 : Fin 4) r c)) (U (ix2 r c)) :=
  Cert.LibScatterAt.scatter_apply_at_image (scd) f P idx0 U land sc_land land_injective _ (ix2 r c) rfl

/-- The scatter off chunk 0: the operand's entry. -/
theorem scatter_off0 (f : α → α → α) (P : S4x16384x1024.Idx → α) (U : S16384x1024.Idx → α) (i : Fin 4) (hi : i.val ≠ 0)
    (r : Fin 16384) (c : Fin 1024) :
    Host.scatter (scd) f P idx0 U (ix3 i r c) = P (ix3 i r c) :=
  Cert.LibScatterAt.scatter_apply_off_image (scd) f P idx0 U land sc_land _
    (fun j h => hi (congrArg (fun g : S4x16384x1024.Idx => (g 0).val) h).symm)

/-- Regrouping the columns: `(i, r, j, u)` reads `(i, r, j * 256 + u)`. -/
theorem regroup_cols (Y : S4x16384x1024.Idx → α) (i : Fin 4) (r : Fin 16384) (j : Fin 4) (u : Fin 256) :
    shapeCast S4x16384x4x256 Y shapeCasts_S4x16384x1024_S4x16384x4x256 (ix4 i r j u) = Y (ix3 i r (Cert.Spec.colOf j u)) :=
  shapeCast_apply Y shapeCasts_S4x16384x1024_S4x16384x4x256 (ix4 i r j u) (ix3 i r (Cert.Spec.colOf j u)) (by
    rewrite [Shape.rowMajor_val_three, Shape.rowMajor_val_four]
    show (i.val * 16384 + r.val) * 1024 + (j.val * 256 + u.val) = ((i.val * 16384 + r.val) * 4 + j.val) * 256 + u.val
    omega)

/-- Regrouping the rows: `(i, r, c)` reads row `i * 16384 + r`, column `c`. -/
theorem regroup_rows (Z : S65536x1024.Idx → α) (i : Fin 4) (r : Fin 16384) (c : Fin 1024) :
    shapeCast S4x16384x1024 Z shapeCasts_S65536x1024_S4x16384x1024 (ix3 i r c) = Z (ix2 (Cert.Spec.rowOf i r) c) :=
  shapeCast_apply Z shapeCasts_S65536x1024_S4x16384x1024 (ix3 i r c) (ix2 (Cert.Spec.rowOf i r) c) (by
    rewrite [Shape.rowMajor_val_two, Shape.rowMajor_val_three]
    show (i.val * 16384 + r.val) * 1024 + c.val = (i.val * 16384 + r.val) * 1024 + c.val
    rfl)

/-- The bias repeated along the rows: `(r, c)` reads the bias at `c`. -/
theorem bias_rows (b : S1024.Idx → α) (r : Fin 16384) (c : Fin 1024) :
    broadcastInDim S16384x1024 ![1] bcast_S1024_S16384x1024_1 b (ix2 r c) = b (ix1 c) :=
  broadcastInDim_apply _ bcast_S1024_S16384x1024_1 b (ix2 r c) (ix1 c) (fun a => match a with
    | ⟨0, _⟩ => by show c.val = if (1024 : Nat) = 1 then 0 else c.val; rw [if_neg (by decide)])

/-- The product's entry `(row, col)`: the sum over the 256 input features. -/
theorem product_apply (x : (⟨S65536x256, .f32⟩ : BufTy).Contents (Elt Ideal)) (W : (⟨S256x1024, .f32⟩ : BufTy).Contents (Elt Ideal))
    (row : Fin 65536) (col : Fin 1024) :
    Host.dotGeneral (F := Ideal) (φ₁ := .f32) (φ₂ := .f32) dot_S65536x256_S256x1024_S65536x1024_1_0_0_1_n_n none x W (ix2 row col)
      = Cert.Spec.prod x W row col := by
  refine (Cert.ReferenceIdeal.Read.val_main_v0_apply x W (ix2 row col)).trans ?_
  unfold Cert.Spec.prod
  refine Finset.sum_congr rfl fun k _ => ?_
  have el : Cert.ReferenceIdeal.Read.lidx_main_v0 (ix2 row col) k = ix2 row k :=
    funext fun a => match a with | ⟨0, _⟩ => rfl | ⟨1, _⟩ => rfl
  have er : Cert.ReferenceIdeal.Read.ridx_main_v0 (ix2 row col) k = ix2 k col :=
    funext fun a => match a with | ⟨0, _⟩ => rfl | ⟨1, _⟩ => rfl
  rw [el, er]

/-- STAGE ONE AT AN ENTRY: the dense layer on row `r` of blade `i`, column `j * 256 + u`. -/
theorem cross_apply (x : (⟨S65536x256, .f32⟩ : BufTy).Contents (Elt Ideal)) (W : (⟨S256x1024, .f32⟩ : BufTy).Contents (Elt Ideal))
    (b : (⟨S1024, .f32⟩ : BufTy).Contents (Elt Ideal)) (i : Fin 4) (r : Fin 16384) (j : Fin 4) (u : Fin 256) :
    cross (F := Ideal) x W b (ix4 i r j u) = Cert.Spec.layer x W b i r (Cert.Spec.colOf j u) := by
  unfold cross Cert.Spec.layer
  refine (regroup_cols _ i r j u).trans ?_
  by_cases hi : i.val = 0
  · obtain rfl : i = 0 := Fin.ext hi
    rw [if_pos hi]
    refine (scatter_chunk0 _ _ _ r (Cert.Spec.colOf j u)).trans ?_
    show _ + _ = _
    rw [regroup_rows, product_apply, bias_rows]
  · rw [if_neg hi]
    refine (scatter_off0 _ _ _ i hi r (Cert.Spec.colOf j u)).trans ?_
    rw [regroup_rows, product_apply]

end Cert.RefSide

end
-- ==== Proof.RefSide.lean ====
/-
  THE REFERENCE'S RUN, on the extended reals: every weakly fair execution of the reference's @main terminates with the
  result buffer at `Cert.Spec.out` of the three arguments' launch contents, and the arguments unchanged.

  The run (`StableHlo.run_seq`) leaves the result buffer at the contents after the fifty-eight operations, which are
  stage two of stage one of the arguments (`after_v56`). Entry by entry that array is `Cert.Spec.out` (`value`): an index of
  the `[65536, 256]` result is row `k * 16384 + r`, column `u`, with `k` the quotient and `r` the remainder of its row by
  16384; there the concatenation reads output blade `k` at `(r, u)` (`assemble_applyK`), a signed sum, added from the
  left, of four entries of stage one (`bladeK_apply`), each the dense layer on row `r` of one input blade at one weight
  group (`cross_apply`) — term by term the sum `Cert.Spec.combine` writes for blade `k`.
-/
import proofs.«132976_j89300960018587_2_alg».proof.Proof.RefSlab
import proofs.«132976_j89300960018587_2_alg».proof.Proof.RefCross

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx
open Cert.ReferenceIdeal.Value (ops main_eq scopedRefs_eq scopedSems_eq ops_sub)

/-- A statement about each of the four blades holds of every blade. -/
theorem forall_blade {P : Fin 4 → Prop} (h0 : P 0) (h1 : P 1) (h2 : P 2) (h3 : P 3) : ∀ k, P k
  | ⟨0, _⟩ => h0
  | ⟨1, _⟩ => h1
  | ⟨2, _⟩ => h2
  | ⟨3, _⟩ => h3

variable (x : (⟨S65536x256, .f32⟩ : BufTy).Contents (Elt Ideal)) (W : (⟨S256x1024, .f32⟩ : BufTy).Contents (Elt Ideal))
  (b : (⟨S1024, .f32⟩ : BufTy).Contents (Elt Ideal))

/-- Stage two of stage one at row `k * 16384 + r`, column `u`: output blade `k` at `(r, u)`. -/
theorem value_at (k : Fin 4) (r : Fin 16384) (u : Fin 256) :
    assemble (cross (F := Ideal) x W b) (ix2 (Cert.Spec.rowOf k r) u) = Cert.Spec.blade x W b k r u := by
  revert k
  refine forall_blade ?_ ?_ ?_ ?_
  · refine (assemble_apply0 _ r u).trans ?_
    rw [blade0_apply, cross_apply, cross_apply, cross_apply, cross_apply]
    rfl
  · refine (assemble_apply1 _ r u).trans ?_
    rw [blade1_apply, cross_apply, cross_apply, cross_apply, cross_apply]
    rfl
  · refine (assemble_apply2 _ r u).trans ?_
    rw [blade2_apply, cross_apply, cross_apply, cross_apply, cross_apply]
    rfl
  · refine (assemble_apply3 _ r u).trans ?_
    rw [blade3_apply, cross_apply, cross_apply, cross_apply, cross_apply]
    rfl

/-- Stage two of stage one is the common target function. -/
theorem value : assemble (cross (F := Ideal) x W b) = Cert.Spec.out x W b := by
  funext idx
  have h0 : (idx 0).val < 65536 := (idx 0).isLt
  have h1 : (idx 1).val < 256 := (idx 1).isLt
  have hk : (idx 0).val / 16384 < 4 := by omega
  have hr : (idx 0).val % 16384 < 16384 := by omega
  obtain ⟨k, r, u, rfl⟩ : ∃ (k : Fin 4) (r : Fin 16384) (u : Fin 256), idx = ix2 (Cert.Spec.rowOf k r) u :=
    ⟨⟨(idx 0).val / 16384, hk⟩, ⟨(idx 0).val % 16384, hr⟩, ⟨(idx 1).val, h1⟩, funext fun a => match a with
      | ⟨0, _⟩ => Fin.ext (by show (idx 0).val = (idx 0).val / 16384 * 16384 + (idx 0).val % 16384; omega)
      | ⟨1, _⟩ => rfl⟩
  rw [Cert.Spec.out_apply]
  exact value_at x W b k r u

/-- On the one device, from any memory with zero counters: every weakly fair execution of the reference's @main
    terminates with the result at `Cert.Spec.out` of the arguments' launch contents and the arguments unchanged. -/
theorem run (m : (l : Loc Cert.ReferenceIdeal.nD Cert.ReferenceIdeal.τ Cert.ReferenceIdeal.sig) → Buf (Elt Ideal) l)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v56)
            = Cert.Spec.out (m ((c.tc : Thread _ _).loc Cert.ReferenceIdeal.main_arg0)) (m ((c.tc : Thread _ _).loc Cert.ReferenceIdeal.main_arg1))
                (m ((c.tc : Thread _ _).loc Cert.ReferenceIdeal.main_arg2))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) :=
  (θ_run defs _ _).mono (fun _ h c => ⟨(h c main_v56).trans ((after_v56 _).trans (value _ _ _)),
      (h c main_arg0).trans (after_arg0 _),
      (h c main_arg1).trans (after_arg1 _),
      (h c main_arg2).trans (after_arg2 _)⟩)
    (run_seq scopedRefs_eq scopedSems_eq defs main (fun _ => ops) main_eq (fun _ => ops_sub) m ρ)

end Cert.RefSide

end
-- ==== Proof.lean ====
/-
  The certificate: a Pallas kernel for a quaternion-structured dense layer against its jnp reference.

  Four blade chunks of the activations go through one dense layer; the bias goes to blade 0's chunk; output blade `k`
  is the signed sum, over the input blades in order, of the one weight group that the quaternion table sends to `k`
  (`Cert.Spec.out`). The kernel computes it tile by tile — sixteen grid points, each reading a tile of 1024 rows of
  every blade through four windows on the ONE array of activations, which is therefore held in four quarter shares —,
  the reference on the whole arrays; on the extended reals both are that one function, term by term, with no law
  beyond the shape of the sums: no finiteness is used.

  Frames: each kernel program runs as host lines, the kernel region, a host line (`Frame.frame`); the reference is a
  line of host operations (`RefSide.run` with the result dropped). The idealized kernel is the kernel's own text read
  on the extended reals, so nothing is owed for `preserves`. The two runs end at the same function of the arguments
  (`KValue.run`, `RefSide.run`).
-/
import proofs.«132976_j89300960018587_2_alg».proof.Defs
import proofs.«132976_j89300960018587_2_alg».proof.Proof.Gen.Kernel
import proofs.«132976_j89300960018587_2_alg».proof.Proof.Gen.KernelIdeal
import proofs.«132976_j89300960018587_2_alg».proof.Proof.Gen.ReferenceIdeal
import proofs.«132976_j89300960018587_2_alg».proof.Proof.Gen.Pre_finite_inputs
import proofs.«132976_j89300960018587_2_alg».proof.Proof.RunReadKernel
import proofs.«132976_j89300960018587_2_alg».proof.Proof.KernelValueIdeal
import proofs.«132976_j89300960018587_2_alg».proof.Proof.RefSide
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Frame.frame (F := Bits) m ρ

/-- So does the kernel read on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Frame.frame (F := Ideal) m ρ

/-- The reference's run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefSide.run m ρ)

/-- From memories agreeing on the arguments both programs end with the same function of them. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.KValue.run m ρ, ?_⟩
  refine (θ_run Cert.ReferenceIdeal.defs _ _).mono (fun _ h c => ⟨(h c).1.trans ?_, (h c).2⟩) (Cert.RefSide.run m' ρ')
  rw [(hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
